-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S1024x1 : Shape := ⟨2, ![1024, 1]⟩
abbrev S1024x512 : Shape := ⟨2, ![1024, 512]⟩
abbrev S8192x1x1024 : Shape := ⟨3, ![8192, 1, 1024]⟩

abbrev nBuf : Space → Nat
  | .hbm => 18
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S512x1024_S512x1024 : S512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  bcast_S8192x1024_S8192x1x1024_0_2 : S8192x1024.BroadcastsInDim S8192x1x1024 (![0, 2] : Fin 2 → Fin S8192x1x1024.rank)
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x1x1024 : Shape := ⟨3, ![8192, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x1024, .f32⟩
  | .hbm, ⟨39, _⟩ => ⟨S8192x1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192x1024_S8192x1x1024_0_2 : S8192x1024.BroadcastsInDim S8192x1x1024 (![0, 2] : Fin 2 → Fin S8192x1x1024.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KB.Common.lean ====
/-
  What the two regions' proofs share. Region 0 projects a block of 512 rows of the embeddings through the three weight
  matrices; region 1 visits, for each tile of 1024 query rows, the 16 tiles of 512 key rows in order, carrying a running row
  maximum, a running normaliser and an unnormalised accumulator in scratch between the visits. Here: a window's block at a
  grid point read off the array the region finds, the fact that an input window's staging buffer holds that block when the
  body runs, the two conditions of region 1's body in closed form over the grid (first key tile; last key tile), and where
  region 1's output window is idle.
-/
import proofs.«100506_j39728447488156_2_alg».proof.Proof.Gen.Kernel.Launch
import proofs.«100506_j39728447488156_2_alg».proof.Proof.Gen.Kernel.Skeleton
import proofs.«100506_j39728447488156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at grid point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its current staging buffer holds the window's block at every grid point, whether
    or not the block was fetched at that point (an unfetched point has the block index of the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0: its current staging buffer holds the window's block at every grid point, whether
    or not the block was fetched at that point (an unfetched point has the block index of the point before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0: its current staging buffer holds the window's block at every grid point, whether
    or not the block was fetched at that point (an unfetched point has the block index of the point before). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of region 0: its current staging buffer holds the window's block at every grid point, whether
    or not the block was fetched at that point (an unfetched point has the block index of the point before). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of region 0: its current staging buffer holds the window's block at every grid point, whether
    or not the block was fetched at that point (an unfetched point has the block index of the point before). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 of region 0: its current staging buffer holds the window's block at every grid point, whether
    or not the block was fetched at that point (an unfetched point has the block index of the point before). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 of region 0: its current staging buffer holds the window's block at every grid point, whether
    or not the block was fetched at that point (an unfetched point has the block index of the point before). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block at grid point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its current staging buffer holds the window's block at every grid point, whether
    or not the block was fetched at that point (an unfetched point has the block index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1: its current staging buffer holds the window's block at every grid point, whether
    or not the block was fetched at that point (an unfetched point has the block index of the point before). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of region 1: its current staging buffer holds the window's block at every grid point, whether
    or not the block was fetched at that point (an unfetched point has the block index of the point before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 1's two conditions over the grid -/

/-- The body's first condition: the key tile is the first of its query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The body's second condition: the key tile is the last of its query tile. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where region 1's windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the output window, -/
theorem idleAt1_3 : ∀ t : Fin cfg1.N, ¬cond1_1 (grid1.coords t) → cfg1.idle 3 (grid1.coords t) = true := by decide +kernel
/-- and the pipeline does not write its block back there; -/
theorem noFlush1_3 : ∀ t : Fin cfg1.N, ¬cond1_1 (grid1.coords t) → (cfg1.win 3).flush t = false := by decide +kernel
/-- at the last key tile it is live. -/
theorem liveAt1_3 : ∀ t : Fin cfg1.N, cond1_1 (grid1.coords t) → cfg1.idle 3 (grid1.coords t) = false := by decide +kernel

/-! ## Region 1's memrefs -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch buffers: the running row maximum, the running normaliser, the accumulator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

end Cert.Kernel.Fr

end
-- ==== Proof.KB.Body0.lean ====
/-
  Region 0: the three projections of one block of 512 rows. The body loads the block of the embeddings and the three
  (transposed, whole) weight matrices and bias rows, and stores each product plus its bias row into its output block with one
  store of the whole block; so after the body each output window's staging buffer holds that one payload of the input blocks,
  at every grid point alike, and nothing is carried from one point to the next.
-/
import proofs.«100506_j39728447488156_2_alg».proof.Proof.KB.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in output window 7's staging buffer, from the input windows' blocks: one store of the whole block. -/
def out0_7 (x0 : Vec F S512x1024 .f32) (x1 : Vec F S1024x1024 .bf16) (x2 : Vec F S1024 .f32) : Vec F S512x1024 .f32 :=
  View.canon [⟨rX, k0_pay2 (View.ld x0 rX) (View.ld x1 rW) (View.ld x2 rB)⟩]

theorem cover0_7 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-- What the body leaves in output window 8's staging buffer, from the input windows' blocks: one store of the whole block. -/
def out0_8 (x0 : Vec F S512x1024 .f32) (x3 : Vec F S1024x1024 .bf16) (x4 : Vec F S1024 .f32) : Vec F S512x1024 .f32 :=
  View.canon [⟨rX, k0_pay3 (View.ld x0 rX) (View.ld x3 rW) (View.ld x4 rB)⟩]

theorem cover0_8 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-- What the body leaves in output window 9's staging buffer, from the input windows' blocks: one store of the whole block. -/
def out0_9 (x0 : Vec F S512x1024 .f32) (x5 : Vec F S1024x1024 .bf16) (x6 : Vec F S1024 .f32) : Vec F S512x1024 .bf16 :=
  View.canon [⟨rX, k0_pay4 (View.ld x0 rX) (View.ld x5 rW) (View.ld x6 rB)⟩]

theorem cover0_9 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 4000000 in
/-- The body on whole staging memrefs, the inputs' at their contents and the outputs' at anything, runs to its return holding
    the inputs' as they were and each output's at its payload of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- Region 0's proof data on core `c`: the arrays as the region finds them; after the body at point `t` each input's buffer
    at its block and each output's at its payload of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any grid point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KB.Run1A.lean ====
/-
  Region 1's body run whole at the first key tile of a query tile (the scratch is reset before it is read, so it may hold anything on entry; the output window is idle):
  what its stores leave in each scratch buffer, as lists of pieces (last store first), found by running the body.
-/
import proofs.«100506_j39728447488156_2_alg».proof.Proof.KB.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S512x1024 .f32) (x2 : Vec F S512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.KB.Run1B.lean ====
/-
  Region 1's body run whole at a key tile that is neither the first nor the last of its query tile (the scratch holds what the tile before left; the output window is idle):
  what its stores leave in each scratch buffer, as lists of pieces (last store first), found by running the body.
-/
import proofs.«100506_j39728447488156_2_alg».proof.Proof.KB.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.KB.Run1C.lean ====
/-
  Region 1's body run whole at the last key tile of a query tile (the scratch holds what the tile before left; the output block is stored):
  what its stores leave in each scratch buffer and in the output block, as lists of pieces (last store first), found by running the body.
-/
import proofs.«100506_j39728447488156_2_alg».proof.Proof.KB.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Fr

end
-- ==== Proof.KB.Body1.lean ====
/-
  Region 1: what the scratch and the output block hold after each grid point, and the body obligation. The grid point
  16·qi + ki visits key tile ki of query tile qi. At ki = 0 the body first resets the three scratch buffers (so they may hold
  anything on entry), at every ki it folds the tile into them, and at ki = 15 it stores the quotient of the accumulator by the
  normaliser into the output block; elsewhere the output window is idle. So the contents after a point are a recursion on the
  point: the first-tile case from the blocks alone, the other two cases from the blocks and what the point before left.
-/
import proofs.«100506_j39728447488156_2_alg».proof.Proof.KB.Run1A
import proofs.«100506_j39728447488156_2_alg».proof.Proof.KB.Run1B
import proofs.«100506_j39728447488156_2_alg».proof.Proof.KB.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Views through which contents are stated (the choice of buffer does not matter once the pieces cover the shape). -/
abbrev VO : View sig .tc .vmem S1024x1024 .f32 := (Memref.whole cc1_stg3_0 : Memref sig .tc .vmem S1024x1024 .f32).view
abbrev VSM : View sig .tc .vmem S1024x1 .f32 := scM.view
abbrev VSL : View sig .tc .vmem S1024x1 .f32 := scL.view
abbrev VSA : View sig .tc .vmem S1024x1024 .f32 := scA.view

theorem scover_A_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) (y : S1024x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S1024x1.size (by sl_kernel_rfl) y

/-- What the body leaves in the running maximum in case A: its pieces read back. -/
def sM_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) : Vec F S1024x1 .f32 :=
  VSM.read (Elt F) (VSM.writes (Elt F) VSM.junk (kernelRun1_A c i arg2 harg2 arg3 harg3 arg4 harg4 arg5 harg5 arg6 harg6 arg7 harg7 arg8 harg8 hc0 hc1 x0 x1 x2).1)

theorem scover_A_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What the body leaves in the running normaliser in case A: its pieces read back. -/
def sL_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) : Vec F S1024x1 .f32 :=
  VSL.read (Elt F) (VSL.writes (Elt F) VSL.junk (kernelRun1_A c i arg2 harg2 arg3 harg3 arg4 harg4 arg5 harg5 arg6 harg6 arg7 harg7 arg8 harg8 hc0 hc1 x0 x1 x2).2.1)

theorem scover_A_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) (y : S1024x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1024.size (by sl_kernel_rfl) y

/-- What the body leaves in the accumulator in case A: its pieces read back. -/
def sA_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) : Vec F S1024x1024 .f32 :=
  VSA.read (Elt F) (VSA.writes (Elt F) VSA.junk (kernelRun1_A c i arg2 harg2 arg3 harg3 arg4 harg4 arg5 harg5 arg6 harg6 arg7 harg7 arg8 harg8 hc0 hc1 x0 x1 x2).2.2.1)

theorem scover_B_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y

/-- What the body leaves in the running maximum in case B: its pieces read back. -/
def sM_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSM.read (Elt F) (VSM.writes (Elt F) VSM.junk (kernelRun1_B c i arg2 harg2 arg3 harg3 arg4 harg4 arg5 harg5 arg6 harg6 arg7 harg7 arg8 harg8 hc0 hc1 x0 x1 x2 xs0 xs1 xs2).1)

theorem scover_B_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What the body leaves in the running normaliser in case B: its pieces read back. -/
def sL_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSL.read (Elt F) (VSL.writes (Elt F) VSL.junk (kernelRun1_B c i arg2 harg2 arg3 harg3 arg4 harg4 arg5 harg5 arg6 harg6 arg7 harg7 arg8 harg8 hc0 hc1 x0 x1 x2 xs0 xs1 xs2).2.1)

theorem scover_B_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1024.size (by sl_kernel_rfl) y

/-- What the body leaves in the accumulator in case B: its pieces read back. -/
def sA_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1024 .f32 :=
  VSA.read (Elt F) (VSA.writes (Elt F) VSA.junk (kernelRun1_B c i arg2 harg2 arg3 harg3 arg4 harg4 arg5 harg5 arg6 harg6 arg7 harg7 arg8 harg8 hc0 hc1 x0 x1 x2 xs0 xs1 xs2).2.2.1)

theorem scover_C_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What the body leaves in the running maximum in case C: its pieces read back. -/
def sM_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSM.read (Elt F) (VSM.writes (Elt F) VSM.junk (kernelRun1_C c i arg2 harg2 arg3 harg3 arg4 harg4 arg5 harg5 arg6 harg6 arg7 harg7 arg8 harg8 hc0 hc1 x0 x1 x2 xs0 xs1 xs2).2.1)

theorem scover_C_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What the body leaves in the running normaliser in case C: its pieces read back. -/
def sL_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSL.read (Elt F) (VSL.writes (Elt F) VSL.junk (kernelRun1_C c i arg2 harg2 arg3 harg3 arg4 harg4 arg5 harg5 arg6 harg6 arg7 harg7 arg8 harg8 hc0 hc1 x0 x1 x2 xs0 xs1 xs2).2.2.1)

theorem scover_C_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y

/-- What the body leaves in the accumulator in case C: its pieces read back. -/
def sA_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1024 .f32 :=
  VSA.read (Elt F) (VSA.writes (Elt F) VSA.junk (kernelRun1_C c i arg2 harg2 arg3 harg3 arg4 harg4 arg5 harg5 arg6 harg6 arg7 harg7 arg8 harg8 hc0 hc1 x0 x1 x2 xs0 xs1 xs2).2.2.2.1)

theorem cover_C_O (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What the body leaves in the output block at the last key tile: its pieces read back. -/
def o_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1024 .f32 :=
  VO.read (Elt F) (VO.writes (Elt F) VO.junk (kernelRun1_C c i arg2 harg2 arg3 harg3 arg4 harg4 arg5 harg5 arg6 harg6 arg7 harg7 arg8 harg8 hc0 hc1 x0 x1 x2 xs0 xs1 xs2).1)

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

section Region1
variable (V : (c : Dev nD) → (b : Ref sig .tc) → Buf (Elt F) ((c : Thread nD τ).loc b))

/-- THE ACCUMULATION: the output block and the three scratch buffers after grid point `n` (output, maximum, normaliser,
    accumulator). -/
def outsAt1 (c : Dev nD) : (n : ℕ) → n < cfg1.N → Vec F S1024x1024 .f32 × Vec F S1024x1 .f32 × Vec F S1024x1 .f32 × Vec F S1024x1024 .f32
  | 0, hn => (VO.read (Elt F) VO.junk, sM_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sL_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sA_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then False.elim (by omega)
      else (VO.read (Elt F) VO.junk, sM_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sL_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sA_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then (o_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sM_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sL_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sA_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else (VO.read (Elt F) VO.junk, sM_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sL_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sA_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (VO.read (Elt F) VO.junk, sM_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t), sL_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t), sA_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (VO.read (Elt F) VO.junk, sM_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sL_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sA_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (o_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sM_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sL_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sA_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scoped rest with each scratch
    buffer at what the point before left in it, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM fullShare (outsAt1 V c n hn).2.1 ∗ owns (c : Thread nD τ) scL fullShare (outsAt1 V c n hn).2.2.1 ∗ owns (c : Thread nD τ) scA fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM fullShare (outsAt1 V c n hn).2.1 ∗ owns (c : Thread nD τ) scL fullShare (outsAt1 V c n hn).2.2.1 ∗ owns (c : Thread nD τ) scA fullShare (outsAt1 V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM fullShare (outsAt1 V c (n - 1) (by omega)).2.1 ∗ owns (c : Thread nD τ) scL fullShare (outsAt1 V c (n - 1) (by omega)).2.2.1 ∗ owns (c : Thread nD τ) scA fullShare (outsAt1 V c (n - 1) (by omega)).2.2.2) ∗ (∃ r, prngReg c r)) := by
  cases n with
  | zero => exact absurd rfl hz
  | succ n => rfl

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any grid point: the inputs' buffers hold their blocks; the closed forms of the conditions say which case the
    point is in; the invariant hands the body the scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sM_A sL_A sA_A; (try dsimp only)
    by_cases hz : t.val = 0
    · rw [PhiS_castSucc V c t, PhiS_zero V c _ _ hz, PhiA1_eq]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_A_M c _ _ _ _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_A_M c _ _ _ _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold o_C sM_C sL_C sA_C; (try dsimp only)
      have hz : t.val ≠ 0 := by omega
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_C_M c _ _ _ _ _ _ _ _ _ _ _ _ _ _ _ _ _ _ _ _ _ _ _)
        isplitl [HS1]
        · unfold owns; iexists _; isplitr
          swap; · iexact HS1
          ipureintro; exact View.read_writes_of_cover _ _ _ _ _ (scover_C_L c _ _ _ _ _ _ _ _ _ _ _ _ _ _ _ _ _ _ _ _ _ _ _)
        unfold owns; iexists _; isplitr
        swap; · iexact HS2
        ipureintro; exact View.read_writes_of_cover _ _ _ _ _ (scover_C_A c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C_O c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sM_B sL_B sA_B; (try dsimp only)
      have hz : t.val ≠ 0 := by omega
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_B_M c _ _ _ _ _ _ _ _ _ _ _ _ _ _ _ _ _ _ _ _ _ _ _)
        isplitl [HS1]
        · unfold owns; iexists _; isplitr
          swap; · iexact HS1
          ipureintro; exact View.read_writes_of_cover _ _ _ _ _ (scover_B_L c _ _ _ _ _ _ _ _ _ _ _ _ _ _ _ _ _ _ _ _ _ _ _)
        unfold owns; iexists _; isplitr
        swap; · iexact HS2
        ipureintro; exact View.read_writes_of_cover _ _ _ _ _ (scover_B_A c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R1, R2, R3, R4, R5, R6, R7, R8, R9, R10, R11, R12, R13, R14, HS0, HS1, HS2⟩, Hg⟩
  isplitl [R1 R2 R3 R4 R5 R6 R7 R8 R9 R10 R11 R12 R13 R14 HS0 HS1 HS2]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Fr

end
-- ==== Proof.KB.Main.lean ====
/-
  The whole run. @main is four segments: the host operations that transpose the weights, region 0, region 1, and the host
  operation that inserts the unit axis. The buffer contents at each boundary are a fold from the launch memory; each region
  leaves its arrays at what its write-backs leave and every other buffer as it found it. The run's post pins EVERY unscoped
  buffer at the last boundary's contents, so both the frame claim (the arguments, read back through the fold) and the value of
  the result follow from it.
-/
import proofs.«100506_j39728447488156_2_alg».proof.Proof.KB.Body0
import proofs.«100506_j39728447488156_2_alg».proof.Proof.KB.Body1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (it is entered at region 0's exit contents). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host operation that follows region 1: the contents the run ends with. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register goes
    into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register goes
    into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (show (pdats m ρ 1 c).Φ (Fin.last _) ⊢ Pipeline.ΦA spec1 c from hout1 (V2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Fr

end
-- ==== Proof.KI.Common.lean ====
/-
  What the two regions' proofs share. Region 0 projects a block of 512 rows of the embeddings through the three weight
  matrices; region 1 visits, for each tile of 1024 query rows, the 16 tiles of 512 key rows in order, carrying a running row
  maximum, a running normaliser and an unnormalised accumulator in scratch between the visits. Here: a window's block at a
  grid point read off the array the region finds, the fact that an input window's staging buffer holds that block when the
  body runs, the two conditions of region 1's body in closed form over the grid (first key tile; last key tile), and where
  region 1's output window is idle.
-/
import proofs.«100506_j39728447488156_2_alg».proof.Proof.Gen.KernelIdeal.Launch
import proofs.«100506_j39728447488156_2_alg».proof.Proof.Gen.KernelIdeal.Skeleton
import proofs.«100506_j39728447488156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at grid point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its current staging buffer holds the window's block at every grid point, whether
    or not the block was fetched at that point (an unfetched point has the block index of the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0: its current staging buffer holds the window's block at every grid point, whether
    or not the block was fetched at that point (an unfetched point has the block index of the point before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0: its current staging buffer holds the window's block at every grid point, whether
    or not the block was fetched at that point (an unfetched point has the block index of the point before). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of region 0: its current staging buffer holds the window's block at every grid point, whether
    or not the block was fetched at that point (an unfetched point has the block index of the point before). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of region 0: its current staging buffer holds the window's block at every grid point, whether
    or not the block was fetched at that point (an unfetched point has the block index of the point before). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 of region 0: its current staging buffer holds the window's block at every grid point, whether
    or not the block was fetched at that point (an unfetched point has the block index of the point before). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 of region 0: its current staging buffer holds the window's block at every grid point, whether
    or not the block was fetched at that point (an unfetched point has the block index of the point before). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block at grid point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its current staging buffer holds the window's block at every grid point, whether
    or not the block was fetched at that point (an unfetched point has the block index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1: its current staging buffer holds the window's block at every grid point, whether
    or not the block was fetched at that point (an unfetched point has the block index of the point before). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of region 1: its current staging buffer holds the window's block at every grid point, whether
    or not the block was fetched at that point (an unfetched point has the block index of the point before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 1's two conditions over the grid -/

/-- The body's first condition: the key tile is the first of its query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The body's second condition: the key tile is the last of its query tile. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where region 1's windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the output window, -/
theorem idleAt1_3 : ∀ t : Fin cfg1.N, ¬cond1_1 (grid1.coords t) → cfg1.idle 3 (grid1.coords t) = true := by decide +kernel
/-- and the pipeline does not write its block back there; -/
theorem noFlush1_3 : ∀ t : Fin cfg1.N, ¬cond1_1 (grid1.coords t) → (cfg1.win 3).flush t = false := by decide +kernel
/-- at the last key tile it is live. -/
theorem liveAt1_3 : ∀ t : Fin cfg1.N, cond1_1 (grid1.coords t) → cfg1.idle 3 (grid1.coords t) = false := by decide +kernel

/-! ## Region 1's memrefs -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch buffers: the running row maximum, the running normaliser, the accumulator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

end Cert.KernelIdeal.Fr

end
-- ==== Proof.KI.Body0.lean ====
/-
  Region 0: the three projections of one block of 512 rows. The body loads the block of the embeddings and the three
  (transposed, whole) weight matrices and bias rows, and stores each product plus its bias row into its output block with one
  store of the whole block; so after the body each output window's staging buffer holds that one payload of the input blocks,
  at every grid point alike, and nothing is carried from one point to the next.
-/
import proofs.«100506_j39728447488156_2_alg».proof.Proof.KI.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in output window 7's staging buffer, from the input windows' blocks: one store of the whole block. -/
def out0_7 (x0 : Vec F S512x1024 .f32) (x1 : Vec F S1024x1024 .bf16) (x2 : Vec F S1024 .f32) : Vec F S512x1024 .f32 :=
  View.canon [⟨rX, k0_pay2 (View.ld x0 rX) (View.ld x1 rW) (View.ld x2 rB)⟩]

theorem cover0_7 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-- What the body leaves in output window 8's staging buffer, from the input windows' blocks: one store of the whole block. -/
def out0_8 (x0 : Vec F S512x1024 .f32) (x3 : Vec F S1024x1024 .bf16) (x4 : Vec F S1024 .f32) : Vec F S512x1024 .f32 :=
  View.canon [⟨rX, k0_pay3 (View.ld x0 rX) (View.ld x3 rW) (View.ld x4 rB)⟩]

theorem cover0_8 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-- What the body leaves in output window 9's staging buffer, from the input windows' blocks: one store of the whole block. -/
def out0_9 (x0 : Vec F S512x1024 .f32) (x5 : Vec F S1024x1024 .bf16) (x6 : Vec F S1024 .f32) : Vec F S512x1024 .bf16 :=
  View.canon [⟨rX, k0_pay4 (View.ld x0 rX) (View.ld x5 rW) (View.ld x6 rB)⟩]

theorem cover0_9 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 4000000 in
/-- The body on whole staging memrefs, the inputs' at their contents and the outputs' at anything, runs to its return holding
    the inputs' as they were and each output's at its payload of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- Region 0's proof data on core `c`: the arrays as the region finds them; after the body at point `t` each input's buffer
    at its block and each output's at its payload of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any grid point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Run1A.lean ====
/-
  Region 1's body run whole at the first key tile of a query tile (the scratch is reset before it is read, so it may hold anything on entry; the output window is idle):
  what its stores leave in each scratch buffer, as lists of pieces (last store first), found by running the body.
-/
import proofs.«100506_j39728447488156_2_alg».proof.Proof.KI.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S512x1024 .f32) (x2 : Vec F S512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KI.Run1B.lean ====
/-
  Region 1's body run whole at a key tile that is neither the first nor the last of its query tile (the scratch holds what the tile before left; the output window is idle):
  what its stores leave in each scratch buffer, as lists of pieces (last store first), found by running the body.
-/
import proofs.«100506_j39728447488156_2_alg».proof.Proof.KI.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KI.Run1C.lean ====
/-
  Region 1's body run whole at the last key tile of a query tile (the scratch holds what the tile before left; the output block is stored):
  what its stores leave in each scratch buffer and in the output block, as lists of pieces (last store first), found by running the body.
-/
import proofs.«100506_j39728447488156_2_alg».proof.Proof.KI.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KI.Body1.lean ====
/-
  Region 1: what the scratch and the output block hold after each grid point, and the body obligation. The grid point
  16·qi + ki visits key tile ki of query tile qi. At ki = 0 the body first resets the three scratch buffers (so they may hold
  anything on entry), at every ki it folds the tile into them, and at ki = 15 it stores the quotient of the accumulator by the
  normaliser into the output block; elsewhere the output window is idle. So the contents after a point are a recursion on the
  point: the first-tile case from the blocks alone, the other two cases from the blocks and what the point before left.
-/
import proofs.«100506_j39728447488156_2_alg».proof.Proof.KI.Run1A
import proofs.«100506_j39728447488156_2_alg».proof.Proof.KI.Run1B
import proofs.«100506_j39728447488156_2_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Views through which contents are stated (the choice of buffer does not matter once the pieces cover the shape). -/
abbrev VO : View sig .tc .vmem S1024x1024 .f32 := (Memref.whole cc1_stg3_0 : Memref sig .tc .vmem S1024x1024 .f32).view
abbrev VSM : View sig .tc .vmem S1024x1 .f32 := scM.view
abbrev VSL : View sig .tc .vmem S1024x1 .f32 := scL.view
abbrev VSA : View sig .tc .vmem S1024x1024 .f32 := scA.view

theorem scover_A_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) (y : S1024x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S1024x1.size (by sl_kernel_rfl) y

/-- What the body leaves in the running maximum in case A: its pieces read back. -/
def sM_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) : Vec F S1024x1 .f32 :=
  VSM.read (Elt F) (VSM.writes (Elt F) VSM.junk (kernelRun1_A c i arg2 harg2 arg3 harg3 arg4 harg4 arg5 harg5 arg6 harg6 arg7 harg7 arg8 harg8 hc0 hc1 x0 x1 x2).1)

theorem scover_A_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What the body leaves in the running normaliser in case A: its pieces read back. -/
def sL_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) : Vec F S1024x1 .f32 :=
  VSL.read (Elt F) (VSL.writes (Elt F) VSL.junk (kernelRun1_A c i arg2 harg2 arg3 harg3 arg4 harg4 arg5 harg5 arg6 harg6 arg7 harg7 arg8 harg8 hc0 hc1 x0 x1 x2).2.1)

theorem scover_A_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) (y : S1024x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1024.size (by sl_kernel_rfl) y

/-- What the body leaves in the accumulator in case A: its pieces read back. -/
def sA_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16) : Vec F S1024x1024 .f32 :=
  VSA.read (Elt F) (VSA.writes (Elt F) VSA.junk (kernelRun1_A c i arg2 harg2 arg3 harg3 arg4 harg4 arg5 harg5 arg6 harg6 arg7 harg7 arg8 harg8 hc0 hc1 x0 x1 x2).2.2.1)

theorem scover_B_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y

/-- What the body leaves in the running maximum in case B: its pieces read back. -/
def sM_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSM.read (Elt F) (VSM.writes (Elt F) VSM.junk (kernelRun1_B c i arg2 harg2 arg3 harg3 arg4 harg4 arg5 harg5 arg6 harg6 arg7 harg7 arg8 harg8 hc0 hc1 x0 x1 x2 xs0 xs1 xs2).1)

theorem scover_B_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What the body leaves in the running normaliser in case B: its pieces read back. -/
def sL_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSL.read (Elt F) (VSL.writes (Elt F) VSL.junk (kernelRun1_B c i arg2 harg2 arg3 harg3 arg4 harg4 arg5 harg5 arg6 harg6 arg7 harg7 arg8 harg8 hc0 hc1 x0 x1 x2 xs0 xs1 xs2).2.1)

theorem scover_B_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1024.size (by sl_kernel_rfl) y

/-- What the body leaves in the accumulator in case B: its pieces read back. -/
def sA_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1024 .f32 :=
  VSA.read (Elt F) (VSA.writes (Elt F) VSA.junk (kernelRun1_B c i arg2 harg2 arg3 harg3 arg4 harg4 arg5 harg5 arg6 harg6 arg7 harg7 arg8 harg8 hc0 hc1 x0 x1 x2 xs0 xs1 xs2).2.2.1)

theorem scover_C_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What the body leaves in the running maximum in case C: its pieces read back. -/
def sM_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSM.read (Elt F) (VSM.writes (Elt F) VSM.junk (kernelRun1_C c i arg2 harg2 arg3 harg3 arg4 harg4 arg5 harg5 arg6 harg6 arg7 harg7 arg8 harg8 hc0 hc1 x0 x1 x2 xs0 xs1 xs2).2.1)

theorem scover_C_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What the body leaves in the running normaliser in case C: its pieces read back. -/
def sL_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1 .f32 :=
  VSL.read (Elt F) (VSL.writes (Elt F) VSL.junk (kernelRun1_C c i arg2 harg2 arg3 harg3 arg4 harg4 arg5 harg5 arg6 harg6 arg7 harg7 arg8 harg8 hc0 hc1 x0 x1 x2 xs0 xs1 xs2).2.2.1)

theorem scover_C_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y

/-- What the body leaves in the accumulator in case C: its pieces read back. -/
def sA_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1024 .f32 :=
  VSA.read (Elt F) (VSA.writes (Elt F) VSA.junk (kernelRun1_C c i arg2 harg2 arg3 harg3 arg4 harg4 arg5 harg5 arg6 harg6 arg7 harg7 arg8 harg8 hc0 hc1 x0 x1 x2 xs0 xs1 xs2).2.2.2.1)

theorem cover_C_O (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What the body leaves in the output block at the last key tile: its pieces read back. -/
def o_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) : Vec F S1024x1024 .f32 :=
  VO.read (Elt F) (VO.writes (Elt F) VO.junk (kernelRun1_C c i arg2 harg2 arg3 harg3 arg4 harg4 arg5 harg5 arg6 harg6 arg7 harg7 arg8 harg8 hc0 hc1 x0 x1 x2 xs0 xs1 xs2).1)

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

section Region1
variable (V : (c : Dev nD) → (b : Ref sig .tc) → Buf (Elt F) ((c : Thread nD τ).loc b))

/-- THE ACCUMULATION: the output block and the three scratch buffers after grid point `n` (output, maximum, normaliser,
    accumulator). -/
def outsAt1 (c : Dev nD) : (n : ℕ) → n < cfg1.N → Vec F S1024x1024 .f32 × Vec F S1024x1 .f32 × Vec F S1024x1 .f32 × Vec F S1024x1024 .f32
  | 0, hn => (VO.read (Elt F) VO.junk, sM_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sL_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sA_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then False.elim (by omega)
      else (VO.read (Elt F) VO.junk, sM_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sL_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sA_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then (o_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sM_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sL_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sA_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else (VO.read (Elt F) VO.junk, sM_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sL_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sA_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (VO.read (Elt F) VO.junk, sM_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t), sL_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t), sA_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (VO.read (Elt F) VO.junk, sM_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sL_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sA_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (o_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sM_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sL_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sA_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scoped rest with each scratch
    buffer at what the point before left in it, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM fullShare (outsAt1 V c n hn).2.1 ∗ owns (c : Thread nD τ) scL fullShare (outsAt1 V c n hn).2.2.1 ∗ owns (c : Thread nD τ) scA fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM fullShare (outsAt1 V c n hn).2.1 ∗ owns (c : Thread nD τ) scL fullShare (outsAt1 V c n hn).2.2.1 ∗ owns (c : Thread nD τ) scA fullShare (outsAt1 V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM fullShare (outsAt1 V c (n - 1) (by omega)).2.1 ∗ owns (c : Thread nD τ) scL fullShare (outsAt1 V c (n - 1) (by omega)).2.2.1 ∗ owns (c : Thread nD τ) scA fullShare (outsAt1 V c (n - 1) (by omega)).2.2.2) ∗ (∃ r, prngReg c r)) := by
  cases n with
  | zero => exact absurd rfl hz
  | succ n => rfl

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any grid point: the inputs' buffers hold their blocks; the closed forms of the conditions say which case the
    point is in; the invariant hands the body the scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sM_A sL_A sA_A; (try dsimp only)
    by_cases hz : t.val = 0
    · rw [PhiS_castSucc V c t, PhiS_zero V c _ _ hz, PhiA1_eq]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_A_M c _ _ _ _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_A_M c _ _ _ _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold o_C sM_C sL_C sA_C; (try dsimp only)
      have hz : t.val ≠ 0 := by omega
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_C_M c _ _ _ _ _ _ _ _ _ _ _ _ _ _ _ _ _ _ _ _ _ _ _)
        isplitl [HS1]
        · unfold owns; iexists _; isplitr
          swap; · iexact HS1
          ipureintro; exact View.read_writes_of_cover _ _ _ _ _ (scover_C_L c _ _ _ _ _ _ _ _ _ _ _ _ _ _ _ _ _ _ _ _ _ _ _)
        unfold owns; iexists _; isplitr
        swap; · iexact HS2
        ipureintro; exact View.read_writes_of_cover _ _ _ _ _ (scover_C_A c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C_O c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sM_B sL_B sA_B; (try dsimp only)
      have hz : t.val ≠ 0 := by omega
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover_B_M c _ _ _ _ _ _ _ _ _ _ _ _ _ _ _ _ _ _ _ _ _ _ _)
        isplitl [HS1]
        · unfold owns; iexists _; isplitr
          swap; · iexact HS1
          ipureintro; exact View.read_writes_of_cover _ _ _ _ _ (scover_B_L c _ _ _ _ _ _ _ _ _ _ _ _ _ _ _ _ _ _ _ _ _ _ _)
        unfold owns; iexists _; isplitr
        swap; · iexact HS2
        ipureintro; exact View.read_writes_of_cover _ _ _ _ _ (scover_B_A c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R1, R2, R3, R4, R5, R6, R7, R8, R9, R10, R11, R12, R13, R14, HS0, HS1, HS2⟩, Hg⟩
  isplitl [R1 R2 R3 R4 R5 R6 R7 R8 R9 R10 R11 R12 R13 R14 HS0 HS1 HS2]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Fr

end
-- ==== Proof.KI.Main.lean ====
/-
  The whole run. @main is four segments: the host operations that transpose the weights, region 0, region 1, and the host
  operation that inserts the unit axis. The buffer contents at each boundary are a fold from the launch memory; each region
  leaves its arrays at what its write-backs leave and every other buffer as it found it. The run's post pins EVERY unscoped
  buffer at the last boundary's contents, so both the frame claim (the arguments, read back through the fold) and the value of
  the result follow from it.
-/
import proofs.«100506_j39728447488156_2_alg».proof.Proof.KI.Body0
import proofs.«100506_j39728447488156_2_alg».proof.Proof.KI.Body1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (it is entered at region 0's exit contents). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host operation that follows region 1: the contents the run ends with. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register goes
    into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register goes
    into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (show (pdats m ρ 1 c).Φ (Fin.last _) ⊢ Pipeline.ΦA spec1 c from hout1 (V2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Fr

end
-- ==== Proof.Spec.lean ====
/-
  The specification: softmax attention of three linear projections, stated index by index on the extended reals.
  No program is imported here. Arrays are functions from literal-shape indices to EReal; indices are built from
  coordinates of literal Fin types.
-/
import Idealize.ShloMosaic.PureOps.Ideal
import Idealize.ShloMosaic.Lib.ValueIdx

noncomputable section

open scoped BigOperators

namespace Cert.Spec

open Idealize.ShloMosaic Idealize.ShloMosaic.ValueIdx

/-- A [8192,1024] array. -/
abbrev Rows : Type := (⟨2, ![8192, 1024]⟩ : Shape).Idx → EReal
/-- A [1024,1024] weight matrix (stored [out, in]). -/
abbrev Mat : Type := (⟨2, ![1024, 1024]⟩ : Shape).Idx → EReal
/-- A [1024] bias. -/
abbrev Bias : Type := (⟨1, ![1024]⟩ : Shape).Idx → EReal
/-- A [8192,8192] array of scores. -/
abbrev Sq : Type := (⟨2, ![8192, 8192]⟩ : Shape).Idx → EReal
/-- The [8192,1,1024] result. -/
abbrev Out3 : Type := (⟨3, ![8192, 1, 1024]⟩ : Shape).Idx → EReal

/-- The f32 word of minus infinity denotes the bottom element. -/
theorem ofBits_negInf : Ideal.ofBits .f32 0xFF800000#32 = (⊥ : EReal) := by simp [Ideal.ofBits, Ideal.ieee]

/-- One entry of a linear projection: (Σ_e x[r,e]·W[d,e]) + b[d]. -/
def projAt (x : Rows) (W : Mat) (b : Bias) (r : Fin 8192) (d : Fin 1024) : EReal :=
  (∑ e : Fin 1024, x (ix2 r e) * W (ix2 d e)) + b (ix1 d)

/-- The projection x·Wᵀ + b as a [8192,1024] array. -/
def proj (x : Rows) (W : Mat) (b : Bias) : Rows := fun i => projAt x W b (i 0) (i 1)

theorem proj_ix2 (x : Rows) (W : Mat) (b : Bias) (r : Fin 8192) (d : Fin 1024) :
    proj x W b (ix2 r d) = (∑ e : Fin 1024, x (ix2 r e) * W (ix2 d e)) + b (ix1 d) := rfl

/-- One score: Σ_d q[r,d]·k[j,d]. -/
def scoreAt (q k : Rows) (r j : Fin 8192) : EReal := ∑ d : Fin 1024, q (ix2 r d) * k (ix2 j d)

/-- The scores q·kᵀ as a [8192,8192] array. -/
def scores (q k : Rows) : Sq := fun i => scoreAt q k (i 0) (i 1)

theorem scores_ix2 (q k : Rows) (r j : Fin 8192) :
    scores q k (ix2 r j) = ∑ d : Fin 1024, q (ix2 r d) * k (ix2 j d) := rfl

/-- The maximum of row r of the scores (from minus infinity, then once more against minus infinity). -/
def rowMax (q k : Rows) (r : Fin 8192) : EReal :=
  max ⊥ ((Finset.univ : Finset (Fin 8192)).fold max ⊥ (fun j => scoreAt q k r j))

/-- The softmax denominator of row r: 0 + Σ_j exp(s[r,j] − M_r). -/
def rowSum (q k : Rows) (r : Fin 8192) : EReal :=
  0 + ∑ j : Fin 8192, Ideal.exp (scoreAt q k r j - rowMax q k r)

theorem rowMax_eq (q k : Rows) (r : Fin 8192) :
    rowMax q k r = (Finset.univ : Finset (Fin 8192)).fold max ⊥ (fun j => scoreAt q k r j) := by
  unfold rowMax; exact max_bot_left _

theorem rowSum_eq (q k : Rows) (r : Fin 8192) :
    rowSum q k r = ∑ j : Fin 8192, Ideal.exp (scoreAt q k r j - rowMax q k r) := by
  unfold rowSum; exact zero_add _

/-- One entry of the attention output: Σ_j (exp(s[r,j] − M_r) / L_r)·v[j,d]. -/
def attnAt (q k v : Rows) (r : Fin 8192) (d : Fin 1024) : EReal :=
  ∑ j : Fin 8192, Ideal.div (Ideal.exp (scoreAt q k r j - rowMax q k r)) (rowSum q k r) * v (ix2 j d)

/-- Softmax attention as a [8192,1024] array. -/
def attn (q k v : Rows) : Rows := fun i => attnAt q k v (i 0) (i 1)

theorem attn_ix2 (q k v : Rows) (r : Fin 8192) (d : Fin 1024) :
    attn q k v (ix2 r d) = attnAt q k v r d := rfl

/-- The attention output with a unit axis inserted: [8192,1,1024]. -/
def out (q k v : Rows) : Out3 := fun i => attnAt q k v (i 0) (i 2)

theorem out_ix3 (q k v : Rows) (r : Fin 8192) (u : Fin 1) (d : Fin 1024) :
    out q k v (ix3 r u d) = attn q k v (ix2 r d) := rfl

/-- The whole function: attention of the three projections of x. -/
def G (x : Rows) (Wq : Mat) (bq : Bias) (Wk : Mat) (bk : Bias) (Wv : Mat) (bv : Bias) : Out3 :=
  out (proj x Wq bq) (proj x Wk bk) (proj x Wv bv)

end Cert.Spec

end
-- ==== Proof.Finite.lean ====
import proofs.«100506_j39728447488156_2_alg».proof.Proof.Gen.Pre_finite_inputs
import proofs.«100506_j39728447488156_2_alg».proof.Proof.Spec
import Idealize.ShloMosaic.Lib.ReduceAll
import Idealize.ShloMosaic.Lib.ValueIdx
import Idealize.ShloMosaic.Lib.Pipeline.Value

noncomputable section

open scoped BigOperators

namespace Cert.Finite

open Idealize.ShloMosaic Idealize.ShloMosaic.ValueIdx

instance : Subsingleton (⟨0, ![]⟩ : Shape).Idx := ⟨fun a b => funext fun d => d.elim0⟩

/-- The f32 word of plus infinity denotes the top element. -/
theorem ofBits_posInf : Ideal.ofBits .f32 0x7F800000#32 = (⊤ : EReal) := by simp [Ideal.ofBits, Ideal.ieee]

/-- An extended real whose absolute value is below plus infinity is a real. -/
theorem real_of_abs_lt (x : EReal) (h : Ideal.cmp .olt (max x (-x)) (Ideal.ofBits .f32 0x7F800000#32) = 1#1) :
    ∃ r : ℝ, x = (r : EReal) := by
  rw [ofBits_posInf] at h
  induction x using EReal.rec with
  | bot => exfalso; revert h; simp [Ideal.cmp]
  | coe r => exact ⟨r, rfl⟩
  | top => exfalso; revert h; simp [Ideal.cmp]

/-- An array whose all-entries-finite test came out 1 has only real entries. -/
theorem all_real {s : Shape} {axes : List (Fin s.rank)} (a : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf a) (broadcastInDim s ![] hb (constant (F := Ideal) (⟨0, ![]⟩ : Shape) .f32 0x7F800000#32)))
          (constantI (⟨0, ![]⟩ : Shape) 1 1#1) hr hu ix0 = 1#1) (i : s.Idx) : ∃ r : ℝ, a i = (r : EReal) := by
  have h1 := Host.reduce_andi_all _ _ hr hu ix0 e i
  rw [cmpf_apply, broadcastInDim_apply _ hb _ i (fun a => a.elim0) (fun a => a.elim0)] at h1
  exact real_of_abs_lt (a i) h1

/-- The precondition's test being all ones makes every entry of each of the seven argument arrays a real. -/
theorem inputs_real (a0 : Spec.Rows) (a1 : Spec.Mat) (a2 : Spec.Bias) (a3 : Spec.Mat) (a4 : Spec.Bias) (a5 : Spec.Mat)
    (a6 : Spec.Bias) (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real a0 _ _ _ e0, all_real a1 _ _ _ e1, all_real a2 _ _ _ e2, all_real a3 _ _ _ e3, all_real a4 _ _ _ e4,
    all_real a5 _ _ _ e5, all_real a6 _ _ _ e6⟩

/-- A finite sum of reals, read in the extended reals, is a real. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-- A projection of real-entried arrays is real-entried. -/
theorem proj_real (x : Spec.Rows) (W : Spec.Mat) (b : Spec.Bias) (hx : ∀ i, ∃ r : ℝ, x i = (r : EReal))
    (hW : ∀ i, ∃ r : ℝ, W i = (r : EReal)) (hb : ∀ i, ∃ r : ℝ, b i = (r : EReal)) (i : (⟨2, ![8192, 1024]⟩ : Shape).Idx) :
    ∃ r : ℝ, Spec.proj x W b i = (r : EReal) := by
  obtain ⟨s, hs⟩ := sum_real (Finset.univ : Finset (Fin 1024)) (fun e => x (ix2 (i 0) e) * W (ix2 (i 1) e)) (fun e _ => by
    obtain ⟨u, hu⟩ := hx (ix2 (i 0) e)
    obtain ⟨w, hw⟩ := hW (ix2 (i 1) e)
    exact ⟨u * w, by rw [hu, hw, EReal.coe_mul]⟩)
  obtain ⟨t, ht⟩ := hb (ix1 (i 1))
  exact ⟨s + t, by
    show (∑ e : Fin 1024, x (ix2 (i 0) e) * W (ix2 (i 1) e)) + b (ix1 (i 1)) = _
    rw [hs, ht, EReal.coe_add]⟩

end Cert.Finite

end
-- ==== Proof.ProjPayloads.lean ====
/-
  Region 0's three payloads read at an index: each is a row of x against a column of the (host-transposed) weight,
  plus the bias entry. At the ideal values the format changes are the identity.
-/
import proofs.«100506_j39728447488156_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen Idealize.ShloMosaic Idealize.ShloMosaic.ValueIdx

theorem lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into the zero accumulator, read at (p, d): the sum over the contracted axis. -/
theorem matmul_apply (l : FVec Ideal S512x1024 .bf16) (w : FVec Ideal S1024x1024 .bf16) (p : Fin 512) (d : Fin 1024) :
    matmul (F := Ideal) dot_S512x1024_S1024x1024_S512x1024_1_0_0_1_n_n none l w (constant (F := Ideal) S512x1024 .f32 0x00000000#32) (ix2 p d)
      = ∑ e : Fin 1024, l (ix2 p e) * w (ix2 e d) := by
  refine (Ideal.matmul_constant_zero_apply dot_S512x1024_S1024x1024_S512x1024_1_0_0_1_n_n none l w (ix2 p d)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p d) ((contrEquiv1 dot_S512x1024_S1024x1024_S512x1024_1_0_0_1_n_n 1024 rfl rfl).symm k) = ix2 p k := funext fun a => Fin.ext (by
    match a with
    | ⟨0, _⟩ => exact lhs0 _ _
    | ⟨1, _⟩ => exact (lhs1 _ _).trans hk)
  have er : dot_S512x1024_S1024x1024_S512x1024_1_0_0_1_n_n.rhsIdx (ix2 p d) ((contrEquiv1 dot_S512x1024_S1024x1024_S512x1024_1_0_0_1_n_n 1024 rfl rfl).symm k) = ix2 k d := funext fun a => Fin.ext (by
    match a with
    | ⟨0, _⟩ => exact (rhs0 _ _).trans hk
    | ⟨1, _⟩ => exact rhs1 _ _)
  rw [el, er]

/-- The bias row, reshaped to [1,1024] and broadcast down the 512 rows, read at (p, d). -/
theorem bias_apply (b : FVec Ideal S1024 .f32) (p : Fin 512) (d : Fin 1024) :
    broadcastTo S512x1024 (shapeCast S1x1024 b shapeCasts_S1024_S1x1024) broadcasts_S1x1024_S512x1024 (ix2 p d) = b (ix1 d) := by
  refine (broadcastTo_apply (shapeCast S1x1024 b shapeCasts_S1024_S1x1024) broadcasts_S1x1024_S512x1024 (ix2 p d)
    (ix2 (0 : Fin 1) d) (fun a => by
      match a with
      | ⟨0, _⟩ => show (0 : Nat) = if (1 : Nat) = 1 then 0 else p.val; rw [if_pos rfl]
      | ⟨1, _⟩ => show d.val = if (1024 : Nat) = 1 then 0 else d.val; rw [if_neg (by decide)])).trans ?_
  refine (shapeCast_addUnit_apply ![1024] b shapeCasts_S1024_S1x1024 (ix2 (0 : Fin 1) d)).trans ?_
  exact congrArg b (funext fun a => by match a with | ⟨0, _⟩ => rfl)

/-- The common arithmetic of the three payloads at (p, d). -/
theorem core_apply (x0 : FVec Ideal S512x1024 .f32) (w : FVec Ideal S1024x1024 .bf16) (b : FVec Ideal S1024 .f32)
    (p : Fin 512) (d : Fin 1024) :
    addf (F := Ideal)
        (matmul (F := Ideal) dot_S512x1024_S1024x1024_S512x1024_1_0_0_1_n_n none (truncf .bf16 x0 bitsLt_bf16_f32)
          (shapeCast S1024x1024 w shapeCasts_S1024x1024_S1024x1024) (constant (F := Ideal) S512x1024 .f32 0x00000000#32))
        (broadcastTo S512x1024 (shapeCast S1x1024 b shapeCasts_S1024_S1x1024) broadcasts_S1x1024_S512x1024) (ix2 p d)
      = (∑ e : Fin 1024, x0 (ix2 p e) * w (ix2 e d)) + b (ix1 d) := by
  refine (addf_apply _ _ _).trans ?_
  rw [matmul_apply, bias_apply, shapeCast_self]
  rfl

/-- The q payload at (p, d). -/
theorem pay2_apply (x0 : Vec Ideal S512x1024 .f32) (w : Vec Ideal S1024x1024 .bf16) (b : Vec Ideal S1024 .f32)
    (p : Fin 512) (d : Fin 1024) :
    Gen.k0_pay2 (F := Ideal) x0 w b (ix2 p d) = (∑ e : Fin 1024, x0 (ix2 p e) * w (ix2 e d)) + b (ix1 d) := by
  unfold Gen.k0_pay2 Gen.k0_pay1
  exact core_apply x0 w b p d

/-- The k payload at (p, d). -/
theorem pay3_apply (x0 : Vec Ideal S512x1024 .f32) (w : Vec Ideal S1024x1024 .bf16) (b : Vec Ideal S1024 .f32)
    (p : Fin 512) (d : Fin 1024) :
    Gen.k0_pay3 (F := Ideal) x0 w b (ix2 p d) = (∑ e : Fin 1024, x0 (ix2 p e) * w (ix2 e d)) + b (ix1 d) := by
  unfold Gen.k0_pay3 Gen.k0_pay1
  exact core_apply x0 w b p d

/-- The v payload at (p, d): the same sum, through one more format change. -/
theorem pay4_apply (x0 : Vec Ideal S512x1024 .f32) (w : Vec Ideal S1024x1024 .bf16) (b : Vec Ideal S1024 .f32)
    (p : Fin 512) (d : Fin 1024) :
    Gen.k0_pay4 (F := Ideal) x0 w b (ix2 p d) = (∑ e : Fin 1024, x0 (ix2 p e) * w (ix2 e d)) + b (ix1 d) := by
  unfold Gen.k0_pay4 Gen.k0_pay1
  refine (truncf_apply (ψ := FTy.bf16) _ bitsLt_bf16_f32 (ix2 p d)).trans ?_
  exact core_apply x0 w b p d

/-- The weight as the host hands it to the region, transposed and format-changed, read at (e, d): the entry (d, e). -/
theorem hostWeight_apply (W : FVec Ideal S1024x1024 .f32) (e d : Fin 1024) :
    (truncf (F := Ideal) .bf16 (transpose S1024x1024 [1, 0] W transposes_S1024x1024_S1024x1024_1_0) bitsLt_bf16_f32)
        (ix2 e d) = W (ix2 d e) := by
  refine (truncf_apply (ψ := FTy.bf16) _ bitsLt_bf16_f32 (ix2 e d)).trans ?_
  exact transpose_apply [1, 0] W transposes_S1024x1024_S1024x1024_1_0 (ix2 e d) (ix2 d e) (fun b => match b with
    | ⟨0, _⟩ => rfl
    | ⟨1, _⟩ => rfl)

end Cert.KernelIdeal.ProjValue

end
-- ==== Proof.ProjBlocks.lean ====
/-
  Region 0's payloads at a grid point: fed a row block of x, the host-transposed weight and the bias, each payload
  is, entry by entry, the row of x against a column of the transposed weight plus the bias entry.
-/
import proofs.«100506_j39728447488156_2_alg».proof.Proof.ProjPayloads
import proofs.«100506_j39728447488156_2_alg».proof.Proof.Spec

noncomputable section

open scoped BigOperators

namespace Cert.KernelIdeal.ProjValue

open Cert.KernelIdeal Cert.KernelIdeal.Gen Idealize.ShloMosaic Idealize.ShloMosaic.ValueIdx

/-- x against a weight stored [in, out], plus the bias: (r, d) ↦ (Σ_e X[r,e]·Wt[e,d]) + B[d]. -/
def projArr (X : Spec.Rows) (Wt : Spec.Mat) (B : Spec.Bias) : Spec.Rows :=
  fun i => (∑ e : Fin 1024, X (ix2 (i 0) e) * Wt (ix2 e (i 1))) + B (ix1 (i 1))

/-- Against the transpose of W this is the specification's projection. -/
theorem projArr_eq_proj (X : Spec.Rows) (W Wt : Spec.Mat) (B : Spec.Bias)
    (hW : ∀ e d : Fin 1024, Wt (ix2 e d) = W (ix2 d e)) : projArr X Wt B = Spec.proj X W B := by
  funext i
  show (∑ e : Fin 1024, X (ix2 (i 0) e) * Wt (ix2 e (i 1))) + B (ix1 (i 1))
    = (∑ e : Fin 1024, X (ix2 (i 0) e) * W (ix2 (i 1) e)) + B (ix1 (i 1))
  exact congrArg (· + B (ix1 (i 1))) (Finset.sum_congr rfl fun e _ => by rw [hW e (i 1)])

/-- The q payload at block index j is the array's entry at i, when the blocks are the arrays' entries on i's row and column. -/
theorem pay2_at (X : Spec.Rows) (Wt : Spec.Mat) (B : Spec.Bias)
    (x0 : Vec Ideal S512x1024 .f32) (w : Vec Ideal S1024x1024 .bf16) (b : Vec Ideal S1024 .f32)
    (i : S8192x1024.Idx) (j : S512x1024.Idx)
    (hx : ∀ e : Fin 1024, x0 (ix2 (j 0) e) = X (ix2 (i 0) e))
    (hw : ∀ e : Fin 1024, w (ix2 e (j 1)) = Wt (ix2 e (i 1)))
    (hb : b (ix1 (j 1)) = B (ix1 (i 1))) :
    Gen.k0_pay2 (F := Ideal) x0 w b j = projArr X Wt B i := by
  obtain ⟨p, d, rfl⟩ : ∃ (p : Fin 512) (d : Fin 1024), j = ix2 p d := ⟨j 0, j 1, eq_ix2 j⟩
  refine (pay2_apply x0 w b p d).trans ?_
  exact congrArg₂ (· + ·) (Finset.sum_congr rfl fun e _ => congrArg₂ (· * ·) (hx e) (hw e)) hb

/-- The k payload likewise. -/
theorem pay3_at (X : Spec.Rows) (Wt : Spec.Mat) (B : Spec.Bias)
    (x0 : Vec Ideal S512x1024 .f32) (w : Vec Ideal S1024x1024 .bf16) (b : Vec Ideal S1024 .f32)
    (i : S8192x1024.Idx) (j : S512x1024.Idx)
    (hx : ∀ e : Fin 1024, x0 (ix2 (j 0) e) = X (ix2 (i 0) e))
    (hw : ∀ e : Fin 1024, w (ix2 e (j 1)) = Wt (ix2 e (i 1)))
    (hb : b (ix1 (j 1)) = B (ix1 (i 1))) :
    Gen.k0_pay3 (F := Ideal) x0 w b j = projArr X Wt B i := by
  obtain ⟨p, d, rfl⟩ : ∃ (p : Fin 512) (d : Fin 1024), j = ix2 p d := ⟨j 0, j 1, eq_ix2 j⟩
  refine (pay3_apply x0 w b p d).trans ?_
  exact congrArg₂ (· + ·) (Finset.sum_congr rfl fun e _ => congrArg₂ (· * ·) (hx e) (hw e)) hb

/-- The v payload likewise. -/
theorem pay4_at (X : Spec.Rows) (Wt : Spec.Mat) (B : Spec.Bias)
    (x0 : Vec Ideal S512x1024 .f32) (w : Vec Ideal S1024x1024 .bf16) (b : Vec Ideal S1024 .f32)
    (i : S8192x1024.Idx) (j : S512x1024.Idx)
    (hx : ∀ e : Fin 1024, x0 (ix2 (j 0) e) = X (ix2 (i 0) e))
    (hw : ∀ e : Fin 1024, w (ix2 e (j 1)) = Wt (ix2 e (i 1)))
    (hb : b (ix1 (j 1)) = B (ix1 (i 1))) :
    Gen.k0_pay4 (F := Ideal) x0 w b j = projArr X Wt B i := by
  obtain ⟨p, d, rfl⟩ : ∃ (p : Fin 512) (d : Fin 1024), j = ix2 p d := ⟨j 0, j 1, eq_ix2 j⟩
  refine (pay4_apply x0 w b p d).trans ?_
  exact congrArg₂ (· + ·) (Finset.sum_congr rfl fun e _ => congrArg₂ (· * ·) (hx e) (hw e)) hb

end Cert.KernelIdeal.ProjValue

end
-- ==== Proof.ProjValue.lean ====
/-
  Region 0's value: each of its three output arrays ends holding, entry by entry, the row of x against a column of the
  weight the region was handed, plus the bias entry.
-/
import proofs.«100506_j39728447488156_2_alg».proof.Proof.KI.Body0
import proofs.«100506_j39728447488156_2_alg».proof.Proof.ProjBlocks
import Idealize.ShloMosaic.Lib.Pipeline.Value
import Idealize.ShloMosaic.Lib.ValueIdx
import Idealize.ShloMosaic.Lib.Decide

set_option maxRecDepth 16384

noncomputable section

open scoped BigOperators

namespace Cert.KernelIdeal.ProjValue

open Cert.KernelIdeal Cert.KernelIdeal.Gen Cert.KernelIdeal.Fr Idealize.ShloMosaic Idealize.ShloMosaic.TcCoe
  Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: windows 0, 7, 8, 9 take row block t; windows 1 to 6 the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Every point writes its three output blocks back. -/
theorem flush_all : ∀ t : Fin cfg0.N,
    (cfg0.win 7).flush t = true ∧ (cfg0.win 8).flush t = true ∧ (cfg0.win 9).flush t = true :=
  (by decide +kernel : ∀ t : Fin grid0.N, _)

section Region0
variable (V : (c : Dev nD) → (b : Ref sig .tc) → Buf (Elt Ideal) ((c : Thread nD τ).loc b))

/-- What point t writes back through output window 7 is block t of the whole-array function. -/
theorem flushed7 (c : Dev nD) (t : Fin cfg0.N) :
    (dat0 V c).flushed 7 t
      = ((cfg0.win 7).blk t).view.read (Elt Ideal) (projArr (V c main_arg0) (V c main_v1) (V c main_arg2)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1024) hz1]
  obtain ⟨a00, a01, a10, a11, a20, a30, a31, a40, a50, a51, a60, a70, a71, a80, a81, a90, a91⟩ := idx_facts t
  funext j
  have hj0 : (j 0).val < 512 := (j 0).isLt
  have hj1 : (j 1).val < 1024 := (j 1).isLt
  refine pay2_at (V c main_arg0) (V c main_v1) (V c main_arg2) (iblk0 V c 0 t) (iblk0 V c 1 t) (iblk0 V c 2 t)
    (((cfg0.win 7).blk t).view.emb j) j (fun e => ?_) (fun e => ?_) ?_
  · show V c main_arg0 (((cfg0.win 0).blk t).view.emb (ix2 (j 0) e))
      = V c main_arg0 (ix2 ((((cfg0.win 7).blk t).view.emb j) 0) e)
    refine congrArg (V c main_arg0) (funext fun a => Fin.ext ?_)
    match a with
    | ⟨0, _⟩ =>
      show win0_0.index t (0 : Fin 2) * 512 + 1 * (j 0).val = win0_7.index t (0 : Fin 2) * 512 + 1 * (j 0).val
      omega
    | ⟨1, _⟩ =>
      show win0_0.index t (1 : Fin 2) * 1024 + 1 * e.val = e.val
      omega
  · show V c main_v1 (((cfg0.win 1).blk t).view.emb (ix2 e (j 1)))
      = V c main_v1 (ix2 e ((((cfg0.win 7).blk t).view.emb j) 1))
    refine congrArg (V c main_v1) (funext fun a => Fin.ext ?_)
    match a with
    | ⟨0, _⟩ =>
      show win0_1.index t (0 : Fin 2) * 1024 + 1 * e.val = e.val
      omega
    | ⟨1, _⟩ =>
      show win0_1.index t (1 : Fin 2) * 1024 + 1 * (j 1).val = win0_7.index t (1 : Fin 2) * 1024 + 1 * (j 1).val
      omega
  · show V c main_arg2 (((cfg0.win 2).blk t).view.emb (ix1 (j 1)))
      = V c main_arg2 (ix1 ((((cfg0.win 7).blk t).view.emb j) 1))
    refine congrArg (V c main_arg2) (funext fun a => Fin.ext ?_)
    match a with
    | ⟨0, _⟩ =>
      show win0_2.index t (0 : Fin 1) * 1024 + 1 * (j 1).val = win0_7.index t (1 : Fin 2) * 1024 + 1 * (j 1).val
      omega

/-- An index of the array is in point t's block of window 7 iff each coordinate is in the block's range. -/
theorem mem_blk7 (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v6_0).slice (win0_7.rect t)).set ↔ _
  rw [View.set_slice_whole, Rect.mem_set_unit]
  exact Iff.rfl

/-- Row r of the array is in the block of point r / 512. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  let t : Fin cfg0.N := ⟨(i 0).val / 512, by show (i 0).val / 512 < grid0.N; rw [N_0]; omega⟩
  obtain ⟨a00, a01, a10, a11, a20, a30, a31, a40, a50, a51, a60, a70, a71, a80, a81, a90, a91⟩ := idx_facts t
  refine ⟨t, (flush_all t).1, ?_⟩
  rw [mem_blk7]
  intro a
  match a with
  | ⟨0, _⟩ =>
    show win0_7.index t (0 : Fin 2) * 512 ≤ (i 0).val ∧ (i 0).val < win0_7.index t (0 : Fin 2) * 512 + 512
    rw [a70]
    show (i 0).val / 512 * 512 ≤ (i 0).val ∧ (i 0).val < (i 0).val / 512 * 512 + 512
    omega
  | ⟨1, _⟩ =>
    show win0_7.index t (1 : Fin 2) * 1024 ≤ (i 1).val ∧ (i 1).val < win0_7.index t (1 : Fin 2) * 1024 + 1024
    rw [a71]
    omega

/-- Region 0 leaves window 7's array holding the whole-array function of the arrays it found. -/
theorem arr7 (c : Dev nD) :
    (dat0 V c).arrAt 7 cfg0.N = projArr (V c main_arg0) (V c main_v1) (V c main_arg2) :=
  (dat0 V c).arrAt_eq_of_cover 7 _ (fun t _ => flushed7 V c t) cover7

/-- What point t writes back through output window 8 is block t of the whole-array function. -/
theorem flushed8 (c : Dev nD) (t : Fin cfg0.N) :
    (dat0 V c).flushed 8 t
      = ((cfg0.win 8).blk t).view.read (Elt Ideal) (projArr (V c main_arg0) (V c main_v3) (V c main_arg4)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1024) hz1]
  obtain ⟨a00, a01, a10, a11, a20, a30, a31, a40, a50, a51, a60, a70, a71, a80, a81, a90, a91⟩ := idx_facts t
  funext j
  have hj0 : (j 0).val < 512 := (j 0).isLt
  have hj1 : (j 1).val < 1024 := (j 1).isLt
  refine pay3_at (V c main_arg0) (V c main_v3) (V c main_arg4) (iblk0 V c 0 t) (iblk0 V c 3 t) (iblk0 V c 4 t)
    (((cfg0.win 8).blk t).view.emb j) j (fun e => ?_) (fun e => ?_) ?_
  · show V c main_arg0 (((cfg0.win 0).blk t).view.emb (ix2 (j 0) e))
      = V c main_arg0 (ix2 ((((cfg0.win 8).blk t).view.emb j) 0) e)
    refine congrArg (V c main_arg0) (funext fun a => Fin.ext ?_)
    match a with
    | ⟨0, _⟩ =>
      show win0_0.index t (0 : Fin 2) * 512 + 1 * (j 0).val = win0_8.index t (0 : Fin 2) * 512 + 1 * (j 0).val
      omega
    | ⟨1, _⟩ =>
      show win0_0.index t (1 : Fin 2) * 1024 + 1 * e.val = e.val
      omega
  · show V c main_v3 (((cfg0.win 3).blk t).view.emb (ix2 e (j 1)))
      = V c main_v3 (ix2 e ((((cfg0.win 8).blk t).view.emb j) 1))
    refine congrArg (V c main_v3) (funext fun a => Fin.ext ?_)
    match a with
    | ⟨0, _⟩ =>
      show win0_3.index t (0 : Fin 2) * 1024 + 1 * e.val = e.val
      omega
    | ⟨1, _⟩ =>
      show win0_3.index t (1 : Fin 2) * 1024 + 1 * (j 1).val = win0_8.index t (1 : Fin 2) * 1024 + 1 * (j 1).val
      omega
  · show V c main_arg4 (((cfg0.win 4).blk t).view.emb (ix1 (j 1)))
      = V c main_arg4 (ix1 ((((cfg0.win 8).blk t).view.emb j) 1))
    refine congrArg (V c main_arg4) (funext fun a => Fin.ext ?_)
    match a with
    | ⟨0, _⟩ =>
      show win0_4.index t (0 : Fin 1) * 1024 + 1 * (j 1).val = win0_8.index t (1 : Fin 2) * 1024 + 1 * (j 1).val
      omega

/-- An index of the array is in point t's block of window 8 iff each coordinate is in the block's range. -/
theorem mem_blk8 (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v6_1).slice (win0_8.rect t)).set ↔ _
  rw [View.set_slice_whole, Rect.mem_set_unit]
  exact Iff.rfl

/-- Row r of the array is in the block of point r / 512. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  let t : Fin cfg0.N := ⟨(i 0).val / 512, by show (i 0).val / 512 < grid0.N; rw [N_0]; omega⟩
  obtain ⟨a00, a01, a10, a11, a20, a30, a31, a40, a50, a51, a60, a70, a71, a80, a81, a90, a91⟩ := idx_facts t
  refine ⟨t, (flush_all t).2.1, ?_⟩
  rw [mem_blk8]
  intro a
  match a with
  | ⟨0, _⟩ =>
    show win0_8.index t (0 : Fin 2) * 512 ≤ (i 0).val ∧ (i 0).val < win0_8.index t (0 : Fin 2) * 512 + 512
    rw [a80]
    show (i 0).val / 512 * 512 ≤ (i 0).val ∧ (i 0).val < (i 0).val / 512 * 512 + 512
    omega
  | ⟨1, _⟩ =>
    show win0_8.index t (1 : Fin 2) * 1024 ≤ (i 1).val ∧ (i 1).val < win0_8.index t (1 : Fin 2) * 1024 + 1024
    rw [a81]
    omega

/-- Region 0 leaves window 8's array holding the whole-array function of the arrays it found. -/
theorem arr8 (c : Dev nD) :
    (dat0 V c).arrAt 8 cfg0.N = projArr (V c main_arg0) (V c main_v3) (V c main_arg4) :=
  (dat0 V c).arrAt_eq_of_cover 8 _ (fun t _ => flushed8 V c t) cover8

/-- What point t writes back through output window 9 is block t of the whole-array function. -/
theorem flushed9 (c : Dev nD) (t : Fin cfg0.N) :
    (dat0 V c).flushed 9 t
      = ((cfg0.win 9).blk t).view.read (Elt Ideal) (projArr (V c main_arg0) (V c main_v5) (V c main_arg6)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1024) hz1]
  obtain ⟨a00, a01, a10, a11, a20, a30, a31, a40, a50, a51, a60, a70, a71, a80, a81, a90, a91⟩ := idx_facts t
  funext j
  have hj0 : (j 0).val < 512 := (j 0).isLt
  have hj1 : (j 1).val < 1024 := (j 1).isLt
  refine pay4_at (V c main_arg0) (V c main_v5) (V c main_arg6) (iblk0 V c 0 t) (iblk0 V c 5 t) (iblk0 V c 6 t)
    (((cfg0.win 9).blk t).view.emb j) j (fun e => ?_) (fun e => ?_) ?_
  · show V c main_arg0 (((cfg0.win 0).blk t).view.emb (ix2 (j 0) e))
      = V c main_arg0 (ix2 ((((cfg0.win 9).blk t).view.emb j) 0) e)
    refine congrArg (V c main_arg0) (funext fun a => Fin.ext ?_)
    match a with
    | ⟨0, _⟩ =>
      show win0_0.index t (0 : Fin 2) * 512 + 1 * (j 0).val = win0_9.index t (0 : Fin 2) * 512 + 1 * (j 0).val
      omega
    | ⟨1, _⟩ =>
      show win0_0.index t (1 : Fin 2) * 1024 + 1 * e.val = e.val
      omega
  · show V c main_v5 (((cfg0.win 5).blk t).view.emb (ix2 e (j 1)))
      = V c main_v5 (ix2 e ((((cfg0.win 9).blk t).view.emb j) 1))
    refine congrArg (V c main_v5) (funext fun a => Fin.ext ?_)
    match a with
    | ⟨0, _⟩ =>
      show win0_5.index t (0 : Fin 2) * 1024 + 1 * e.val = e.val
      omega
    | ⟨1, _⟩ =>
      show win0_5.index t (1 : Fin 2) * 1024 + 1 * (j 1).val = win0_9.index t (1 : Fin 2) * 1024 + 1 * (j 1).val
      omega
  · show V c main_arg6 (((cfg0.win 6).blk t).view.emb (ix1 (j 1)))
      = V c main_arg6 (ix1 ((((cfg0.win 9).blk t).view.emb j) 1))
    refine congrArg (V c main_arg6) (funext fun a => Fin.ext ?_)
    match a with
    | ⟨0, _⟩ =>
      show win0_6.index t (0 : Fin 1) * 1024 + 1 * (j 1).val = win0_9.index t (1 : Fin 2) * 1024 + 1 * (j 1).val
      omega

/-- An index of the array is in point t's block of window 9 iff each coordinate is in the block's range. -/
theorem mem_blk9 (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v6_2).slice (win0_9.rect t)).set ↔ _
  rw [View.set_slice_whole, Rect.mem_set_unit]
  exact Iff.rfl

/-- Row r of the array is in the block of point r / 512. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  let t : Fin cfg0.N := ⟨(i 0).val / 512, by show (i 0).val / 512 < grid0.N; rw [N_0]; omega⟩
  obtain ⟨a00, a01, a10, a11, a20, a30, a31, a40, a50, a51, a60, a70, a71, a80, a81, a90, a91⟩ := idx_facts t
  refine ⟨t, (flush_all t).2.2, ?_⟩
  rw [mem_blk9]
  intro a
  match a with
  | ⟨0, _⟩ =>
    show win0_9.index t (0 : Fin 2) * 512 ≤ (i 0).val ∧ (i 0).val < win0_9.index t (0 : Fin 2) * 512 + 512
    rw [a90]
    show (i 0).val / 512 * 512 ≤ (i 0).val ∧ (i 0).val < (i 0).val / 512 * 512 + 512
    omega
  | ⟨1, _⟩ =>
    show win0_9.index t (1 : Fin 2) * 1024 ≤ (i 1).val ∧ (i 1).val < win0_9.index t (1 : Fin 2) * 1024 + 1024
    rw [a91]
    omega

/-- Region 0 leaves window 9's array holding the whole-array function of the arrays it found. -/
theorem arr9 (c : Dev nD) :
    (dat0 V c).arrAt 9 cfg0.N = projArr (V c main_arg0) (V c main_v5) (V c main_arg6) :=
  (dat0 V c).arrAt_eq_of_cover 9 _ (fun t _ => flushed9 V c t) cover9

end Region0

end Cert.KernelIdeal.ProjValue

end
-- ==== Proof.ProjHost.lean ====
/-
  The host operations before region 0: each weight is transposed and its format changed; the other arguments are not written.
-/
import proofs.«100506_j39728447488156_2_alg».proof.Proof.Gen.KernelIdeal.Launch
import Idealize.ShloMosaic.Lib.StableHlo.Run

set_option maxRecDepth 16384

noncomputable section

namespace Cert.KernelIdeal.ProjValue

open Cert.KernelIdeal Cert.KernelIdeal.Gen Idealize.ShloMosaic Idealize.ShloMosaic.TcCoe Idealize.SL.Sem
  Idealize.ShloMosaic.StableHlo

variable {F : FTy → Type} [FloatOps F]

/-- The weight region 0 is handed for q: the transposed, format-changed first weight. -/
theorem host_v1 (W : Valuation τ sig (Elt F)) :
    (StableHlo.after hostOps0 W (Proc.devRef .tc main_v1) : S1024x1024.Idx → F .bf16)
      = truncf (F := F) .bf16 (transpose S1024x1024 [1, 0] (W (Proc.devRef .tc main_arg1)) transposes_S1024x1024_S1024x1024_1_0) bitsLt_bf16_f32 := by
  after_results

/-- The weight region 0 is handed for k. -/
theorem host_v3 (W : Valuation τ sig (Elt F)) :
    (StableHlo.after hostOps0 W (Proc.devRef .tc main_v3) : S1024x1024.Idx → F .bf16)
      = truncf (F := F) .bf16 (transpose S1024x1024 [1, 0] (W (Proc.devRef .tc main_arg3)) transposes_S1024x1024_S1024x1024_1_0) bitsLt_bf16_f32 := by
  after_results

/-- The weight region 0 is handed for v. -/
theorem host_v5 (W : Valuation τ sig (Elt F)) :
    (StableHlo.after hostOps0 W (Proc.devRef .tc main_v5) : S1024x1024.Idx → F .bf16)
      = truncf (F := F) .bf16 (transpose S1024x1024 [1, 0] (W (Proc.devRef .tc main_arg5)) transposes_S1024x1024_S1024x1024_1_0) bitsLt_bf16_f32 := by
  after_results

theorem host_arg0 (W : Valuation τ sig (Elt F)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_arg2 (W : Valuation τ sig (Elt F)) :
    StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_arg4 (W : Valuation τ sig (Elt F)) :
    StableHlo.after hostOps0 W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_arg6 (W : Valuation τ sig (Elt F)) :
    StableHlo.after hostOps0 W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.ProjValue

end
-- ==== Proof.ProjFinal.lean ====
/-
  Region 0's three output arrays, at its exit, are the specification's projections of the launch arrays.
-/
import proofs.«100506_j39728447488156_2_alg».proof.Proof.KI.Main
import proofs.«100506_j39728447488156_2_alg».proof.Proof.ProjValue
import proofs.«100506_j39728447488156_2_alg».proof.Proof.ProjHost

set_option maxRecDepth 16384

noncomputable section

namespace Cert.KernelIdeal.ProjValue

open Cert.KernelIdeal Cert.KernelIdeal.Gen Cert.KernelIdeal.Fr Idealize.ShloMosaic Idealize.ShloMosaic.TcCoe
  Idealize.ShloMosaic.ValueIdx Idealize.SL.Sem

/-- Region 0 leaves main_v6_0 holding the projection of the launch arrays. -/
theorem W2_q (m : (ℓ : Loc nD τ sig) → Buf (Elt Ideal) ℓ) (ρ : Dev nD → PrngReg) (c : Dev nD) :
    W2 m ρ c (Proc.devRef .tc main_v6_0)
      = Cert.Spec.proj (m ((c.tc : Thread nD τ).loc main_arg0)) (m ((c.tc : Thread nD τ).loc main_arg1))
          (m ((c.tc : Thread nD τ).loc main_arg2)) := by
  refine ((W2_arr m ρ c 7).trans (arr7 (V1 m ρ) c)).trans ?_
  have hx : V1 m ρ c main_arg0 = m ((c.tc : Thread nD τ).loc main_arg0) := host_arg0 (W0 m ρ c)
  have hb : V1 m ρ c main_arg2 = m ((c.tc : Thread nD τ).loc main_arg2) := host_arg2 (W0 m ρ c)
  rw [hx, hb]
  refine projArr_eq_proj _ (m ((c.tc : Thread nD τ).loc main_arg1)) _ _ (fun e d => ?_)
  refine (congrFun (host_v1 (W0 m ρ c)) (ix2 e d)).trans ?_
  exact hostWeight_apply (m ((c.tc : Thread nD τ).loc main_arg1)) e d

/-- Region 0 leaves main_v6_1 holding the projection of the launch arrays. -/
theorem W2_k (m : (ℓ : Loc nD τ sig) → Buf (Elt Ideal) ℓ) (ρ : Dev nD → PrngReg) (c : Dev nD) :
    W2 m ρ c (Proc.devRef .tc main_v6_1)
      = Cert.Spec.proj (m ((c.tc : Thread nD τ).loc main_arg0)) (m ((c.tc : Thread nD τ).loc main_arg3))
          (m ((c.tc : Thread nD τ).loc main_arg4)) := by
  refine ((W2_arr m ρ c 8).trans (arr8 (V1 m ρ) c)).trans ?_
  have hx : V1 m ρ c main_arg0 = m ((c.tc : Thread nD τ).loc main_arg0) := host_arg0 (W0 m ρ c)
  have hb : V1 m ρ c main_arg4 = m ((c.tc : Thread nD τ).loc main_arg4) := host_arg4 (W0 m ρ c)
  rw [hx, hb]
  refine projArr_eq_proj _ (m ((c.tc : Thread nD τ).loc main_arg3)) _ _ (fun e d => ?_)
  refine (congrFun (host_v3 (W0 m ρ c)) (ix2 e d)).trans ?_
  exact hostWeight_apply (m ((c.tc : Thread nD τ).loc main_arg3)) e d

/-- Region 0 leaves main_v6_2 holding the projection of the launch arrays. -/
theorem W2_v (m : (ℓ : Loc nD τ sig) → Buf (Elt Ideal) ℓ) (ρ : Dev nD → PrngReg) (c : Dev nD) :
    W2 m ρ c (Proc.devRef .tc main_v6_2)
      = Cert.Spec.proj (m ((c.tc : Thread nD τ).loc main_arg0)) (m ((c.tc : Thread nD τ).loc main_arg5))
          (m ((c.tc : Thread nD τ).loc main_arg6)) := by
  refine ((W2_arr m ρ c 9).trans (arr9 (V1 m ρ) c)).trans ?_
  have hx : V1 m ρ c main_arg0 = m ((c.tc : Thread nD τ).loc main_arg0) := host_arg0 (W0 m ρ c)
  have hb : V1 m ρ c main_arg6 = m ((c.tc : Thread nD τ).loc main_arg6) := host_arg6 (W0 m ρ c)
  rw [hx, hb]
  refine projArr_eq_proj _ (m ((c.tc : Thread nD τ).loc main_arg5)) _ _ (fun e d => ?_)
  refine (congrFun (host_v5 (W0 m ρ c)) (ix2 e d)).trans ?_
  exact hostWeight_apply (m ((c.tc : Thread nD τ).loc main_arg5)) e d

end Cert.KernelIdeal.ProjValue

end
-- ==== Proof.FlashPieces.lean ====
import proofs.«100506_j39728447488156_2_alg».proof.Proof.KI.Run1A
import proofs.«100506_j39728447488156_2_alg».proof.Proof.KI.Run1B
import proofs.«100506_j39728447488156_2_alg».proof.Proof.KI.Run1C
import Idealize.ShloMosaic.Lib.Pipeline.Value
import Idealize.ShloMosaic.Lib.Tactic

/-!
# What the body leaves in the scratch and in the output block, as payload terms

For each of the body's three cases (first key tile, middle, last) and each buffer it stores into, the contents the
run's stores leave there, read back whole: the new running maximum, normaliser and accumulator as the generated
payload terms of the blocks and of the old scratch contents (the reset constants at the first tile), and at the
last tile the output block as the quotient payload of the new accumulator and normaliser. Generic in the float
instance.
-/

set_option maxRecDepth 16384

noncomputable section

namespace Cert.KernelIdeal.FlashValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The zero offsets of a rank-2 rectangle, spelt as a constant function. -/
theorem hz2 : (![0, 0] : Fin 2 → Nat) = fun _ => 0 := funext fun a => by fin_cases a <;> rfl

/-- First key tile: the running maximum left is the update of the reset value. -/
theorem piece_A_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16)  :
    scM.view.read (Elt F) (scM.view.writes (Elt F) scM.view.junk (kernelRun1_A c i arg2 harg2 arg3 harg3 arg4 harg4 arg5 harg5 arg6 harg6 arg7 harg7 arg8 harg8 hc0 hc1 x0 x1 x2).1)
      = k1_pay2 (k1_pay8 x0 x1 k1_pay4) := by
  rw [View.read_writes_eq_canon _ _ _ (fun y => View.cover_of_tiledL (kernelRun1_A c i arg2 harg2 arg3 harg3 arg4 harg4 arg5 harg5 arg6 harg6 arg7 harg7 arg8 harg8 hc0 hc1 x0 x1 x2).1 S1024x1.size (by sl_kernel_rfl) y)]
  unfold kernelRun1_A
  dsimp only
  try sl_unfold_words
  first
    | rw [View.canon_unit_zero hz2]
    | rw [View.canon_cons_unit_zero (S := S1024x1) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- First key tile: the normaliser left is the update of the reset values. -/
theorem piece_A_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16)  :
    scL.view.read (Elt F) (scL.view.writes (Elt F) scL.view.junk (kernelRun1_A c i arg2 harg2 arg3 harg3 arg4 harg4 arg5 harg5 arg6 harg6 arg7 harg7 arg8 harg8 hc0 hc1 x0 x1 x2).2.1)
      = k1_pay11 x0 x1 k1_pay4 k1_pay4 k1_pay5 := by
  rw [View.read_writes_eq_canon _ _ _ (fun y => View.cover_of_tiledL (kernelRun1_A c i arg2 harg2 arg3 harg3 arg4 harg4 arg5 harg5 arg6 harg6 arg7 harg7 arg8 harg8 hc0 hc1 x0 x1 x2).2.1 S1024x1.size (by sl_kernel_rfl) y)]
  unfold kernelRun1_A
  dsimp only
  try sl_unfold_words
  first
    | rw [View.canon_unit_zero hz2]
    | rw [View.canon_cons_unit_zero (S := S1024x1) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- First key tile: the accumulator left is the update of the reset values. -/
theorem piece_A_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec F S1024x1024 .f32) (x1 : Vec F S512x1024 .f32) (x2 : Vec F S512x1024 .bf16)  :
    scA.view.read (Elt F) (scA.view.writes (Elt F) scA.view.junk (kernelRun1_A c i arg2 harg2 arg3 harg3 arg4 harg4 arg5 harg5 arg6 harg6 arg7 harg7 arg8 harg8 hc0 hc1 x0 x1 x2).2.2.1)
      = k1_pay1 (k1_pay12 x0 x1 k1_pay4 k1_pay4 k1_pay6) (k1_pay13 x0 x1 k1_pay4 x2) := by
  rw [View.read_writes_eq_canon _ _ _ (fun y => View.cover_of_tiledL (kernelRun1_A c i arg2 harg2 arg3 harg3 arg4 harg4 arg5 harg5 arg6 harg6 arg7 harg7 arg8 harg8 hc0 hc1 x0 x1 x2).2.2.1 S1024x1024.size (by sl_kernel_rfl) y)]
  unfold kernelRun1_A
  dsimp only
  try sl_unfold_words
  first
    | rw [View.canon_unit_zero hz2]
    | rw [View.canon_cons_unit_zero (S := S1024x1024) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Middle key tile: the running maximum left is the update of the old one. -/
theorem piece_B_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    scM.view.read (Elt F) (scM.view.writes (Elt F) scM.view.junk (kernelRun1_B c i arg2 harg2 arg3 harg3 arg4 harg4 arg5 harg5 arg6 harg6 arg7 harg7 arg8 harg8 hc0 hc1 x0 x1 x2 xs0 xs1 xs2).1)
      = k1_pay2 (k1_pay8 x0 x1 xs0) := by
  rw [View.read_writes_eq_canon _ _ _ (fun y => View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y)]
  unfold kernelRun1_B
  dsimp only
  try sl_unfold_words
  first
    | rw [View.canon_unit_zero hz2]
    | rw [View.canon_cons_unit_zero (S := S1024x1) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Middle key tile: the normaliser left is the update of the old one. -/
theorem piece_B_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    scL.view.read (Elt F) (scL.view.writes (Elt F) scL.view.junk (kernelRun1_B c i arg2 harg2 arg3 harg3 arg4 harg4 arg5 harg5 arg6 harg6 arg7 harg7 arg8 harg8 hc0 hc1 x0 x1 x2 xs0 xs1 xs2).2.1)
      = k1_pay11 x0 x1 xs0 xs0 xs1 := by
  rw [View.read_writes_eq_canon _ _ _ (fun y => View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y)]
  unfold kernelRun1_B
  dsimp only
  try sl_unfold_words
  first
    | rw [View.canon_unit_zero hz2]
    | rw [View.canon_cons_unit_zero (S := S1024x1) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Middle key tile: the accumulator left is the update of the old one. -/
theorem piece_B_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    scA.view.read (Elt F) (scA.view.writes (Elt F) scA.view.junk (kernelRun1_B c i arg2 harg2 arg3 harg3 arg4 harg4 arg5 harg5 arg6 harg6 arg7 harg7 arg8 harg8 hc0 hc1 x0 x1 x2 xs0 xs1 xs2).2.2.1)
      = k1_pay1 (k1_pay12 x0 x1 xs0 xs0 xs2) (k1_pay13 x0 x1 xs0 x2) := by
  rw [View.read_writes_eq_canon _ _ _ (fun y => View.cover_of_tiledL (kernelRun1_B c i arg2 harg2 arg3 harg3 arg4 harg4 arg5 harg5 arg6 harg6 arg7 harg7 arg8 harg8 hc0 hc1 x0 x1 x2 xs0 xs1 xs2).2.2.1 S1024x1024.size (by sl_kernel_rfl) y)]
  unfold kernelRun1_B
  dsimp only
  try sl_unfold_words
  first
    | rw [View.canon_unit_zero hz2]
    | rw [View.canon_cons_unit_zero (S := S1024x1024) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Last key tile: the output block is the quotient of the new accumulator by the new normaliser. -/
theorem piece_C_O (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    (Memref.whole cc1_stg3_0 : Memref sig .tc .vmem S1024x1024 .f32).view.read (Elt F) ((Memref.whole cc1_stg3_0 : Memref sig .tc .vmem S1024x1024 .f32).view.writes (Elt F) (Memref.whole cc1_stg3_0 : Memref sig .tc .vmem S1024x1024 .f32).view.junk (kernelRun1_C c i arg2 harg2 arg3 harg3 arg4 harg4 arg5 harg5 arg6 harg6 arg7 harg7 arg8 harg8 hc0 hc1 x0 x1 x2 xs0 xs1 xs2).1)
      = k1_pay3 (k1_pay1 (k1_pay12 x0 x1 xs0 xs0 xs2) (k1_pay13 x0 x1 xs0 x2)) (k1_pay11 x0 x1 xs0 xs0 xs1) := by
  rw [View.read_writes_eq_canon _ _ _ (fun y => View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y)]
  unfold kernelRun1_C
  dsimp only
  try sl_unfold_words
  first
    | rw [View.canon_unit_zero hz2]
    | rw [View.canon_cons_unit_zero (S := S1024x1024) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Last key tile: the running maximum left is the update of the old one. -/
theorem piece_C_M (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    scM.view.read (Elt F) (scM.view.writes (Elt F) scM.view.junk (kernelRun1_C c i arg2 harg2 arg3 harg3 arg4 harg4 arg5 harg5 arg6 harg6 arg7 harg7 arg8 harg8 hc0 hc1 x0 x1 x2 xs0 xs1 xs2).2.1)
      = k1_pay2 (k1_pay8 x0 x1 xs0) := by
  rw [View.read_writes_eq_canon _ _ _ (fun y => View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y)]
  unfold kernelRun1_C
  dsimp only
  try sl_unfold_words
  first
    | rw [View.canon_unit_zero hz2]
    | rw [View.canon_cons_unit_zero (S := S1024x1) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Last key tile: the normaliser left is the update of the old one. -/
theorem piece_C_L (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    scL.view.read (Elt F) (scL.view.writes (Elt F) scL.view.junk (kernelRun1_C c i arg2 harg2 arg3 harg3 arg4 harg4 arg5 harg5 arg6 harg6 arg7 harg7 arg8 harg8 hc0 hc1 x0 x1 x2 xs0 xs1 xs2).2.2.1)
      = k1_pay11 x0 x1 xs0 xs0 xs1 := by
  rw [View.read_writes_eq_canon _ _ _ (fun y => View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y)]
  unfold kernelRun1_C
  dsimp only
  try sl_unfold_words
  first
    | rw [View.canon_unit_zero hz2]
    | rw [View.canon_cons_unit_zero (S := S1024x1) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

/-- Last key tile: the accumulator left is the update of the old one. -/
theorem piece_C_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec F S1024x1024 .f32) (x1 : Vec F S512x1024 .f32) (x2 : Vec F S512x1024 .bf16) (xs0 : Vec F S1024x1 .f32) (xs1 : Vec F S1024x1 .f32) (xs2 : Vec F S1024x1024 .f32) :
    scA.view.read (Elt F) (scA.view.writes (Elt F) scA.view.junk (kernelRun1_C c i arg2 harg2 arg3 harg3 arg4 harg4 arg5 harg5 arg6 harg6 arg7 harg7 arg8 harg8 hc0 hc1 x0 x1 x2 xs0 xs1 xs2).2.2.2.1)
      = k1_pay1 (k1_pay12 x0 x1 xs0 xs0 xs2) (k1_pay13 x0 x1 xs0 x2) := by
  rw [View.read_writes_eq_canon _ _ _ (fun y => View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y)]
  unfold kernelRun1_C
  dsimp only
  try sl_unfold_words
  first
    | rw [View.canon_unit_zero hz2]
    | rw [View.canon_cons_unit_zero (S := S1024x1024) hz2]
  simp only [View.readCov_unit_zero (S := S1024x1) _ hz2, View.readCov_unit_zero (S := S1024x1024) _ hz2,
    View.readAt_eq_ld, harg2.read_unread, harg3.read_unread, harg4.read_unread, harg5.read_unread, harg6.read_unread,
    harg7.read_unread, harg8.read_unread, View.ld_unit_zero (S := S1024x1024) hz2, View.ld_unit_zero (S := S512x1024) hz2,
    View.ld_unit_zero (S := S1024x1) hz2]

end Cert.KernelIdeal.FlashValue
-- ==== Proof.LibOnlineSoftmax.lean ====
import Idealize.ShloMosaic.PureOps.Ideal
import Mathlib.Data.Finset.Lattice.Fold

/-!
# The online (streaming) softmax, over the extended reals

For one query row and one output column: real scores `s : κ → ℝ` and real values `v : κ → ℝ` over a key
type `κ`. A running triple `(m, l, acc)` of extended reals is the *state after a finite key set* `A`
when `m` is the maximum of the scores over `A` (`⊥` on the empty set), `l` is the sum over `A` of
`exp (s c - m)` and `acc` the sum over `A` of `exp (s c - m) * v c`. The file proves that the streaming
update by a further nonempty tile of keys keeps the state, and that the final quotient `acc / l` is the
softmax-weighted sum of the values, written with the extended-real operations `Ideal.exp`, `Ideal.div`.
-/

noncomputable section

namespace OnlineSoftmax

open Idealize.ShloMosaic

variable {κ : Type*}

/-- The coercion to the extended reals of a finite real sum is the sum of the coercions. -/
theorem coe_sum (A : Finset κ) (f : κ → ℝ) :
    ((∑ c ∈ A, f c : ℝ) : EReal) = ∑ c ∈ A, (f c : EReal) := by
  classical
  induction A using Finset.induction_on with
  | empty => simp
  | insert a A ha ih => rw [Finset.sum_insert ha, Finset.sum_insert ha, EReal.coe_add, ih]

/-- The coercion to the extended reals carries the maximum of two reals to the maximum. -/
theorem coe_max (x y : ℝ) : ((max x y : ℝ) : EReal) = max (x : EReal) (y : EReal) :=
  EReal.coe_strictMono.monotone.map_max

/-- A fold of `max` from `⊥` over a finite set is the supremum over the set. -/
theorem fold_max_bot (A : Finset κ) (f : κ → EReal) : A.fold max ⊥ f = A.sup f := rfl

/-- Over a nonempty set the supremum of coerced reals is the coercion of the real maximum. -/
theorem sup_coe (A : Finset κ) (hA : A.Nonempty) (s : κ → ℝ) :
    A.sup (fun c => (s c : EReal)) = ((A.sup' hA s : ℝ) : EReal) := by
  rw [← Finset.sup'_eq_sup hA]
  exact (Finset.comp_sup'_eq_sup'_comp hA (fun x : ℝ => (x : EReal)) (fun x y => coe_max x y)).symm

/-- The state of the streaming softmax after the keys of `A`: the running maximum, the running sum of
    exponentials and the running weighted sum, the last two normalised by the running maximum. On the empty
    set this says `m = ⊥`, `l = 0`, `acc = 0`. -/
structure State (s v : κ → ℝ) (A : Finset κ) (m l acc : EReal) : Prop where
  m_eq : m = A.sup (fun c => (s c : EReal))
  l_eq : l = ((∑ c ∈ A, Real.exp (s c - m.toReal) : ℝ) : EReal)
  acc_eq : acc = ((∑ c ∈ A, Real.exp (s c - m.toReal) * v c : ℝ) : EReal)

/-- The initial triple `(⊥, 0, 0)` is the state after no key. -/
theorem State.empty (s v : κ → ℝ) : State s v ∅ ⊥ 0 0 :=
  ⟨by simp, by simp, by simp⟩

/-- After no key the state is the initial triple. -/
theorem State.eq_of_empty {s v : κ → ℝ} {m l acc : EReal} (h : State s v ∅ m l acc) :
    m = ⊥ ∧ l = 0 ∧ acc = 0 :=
  ⟨by simpa using h.m_eq, by simpa using h.l_eq, by simpa using h.acc_eq⟩

/-- After a nonempty key set the state is the coercion of the real maximum `M`, of `∑ exp (s c - M)` and of
    `∑ exp (s c - M) * v c`. -/
theorem State.eq_of_nonempty {s v : κ → ℝ} {A : Finset κ} {m l acc : EReal} (h : State s v A m l acc)
    (hA : A.Nonempty) :
    m = ((A.sup' hA s : ℝ) : EReal) ∧ l = ((∑ c ∈ A, Real.exp (s c - A.sup' hA s) : ℝ) : EReal)
      ∧ acc = ((∑ c ∈ A, Real.exp (s c - A.sup' hA s) * v c : ℝ) : EReal) := by
  have hm : m = ((A.sup' hA s : ℝ) : EReal) := h.m_eq.trans (sup_coe A hA s)
  have ht : m.toReal = A.sup' hA s := by rw [hm, EReal.toReal_coe]
  exact ⟨hm, by rw [h.l_eq, ht], by rw [h.acc_eq, ht]⟩

/-- A triple of coerced reals `M`, `∑ exp (s c - M)`, `∑ exp (s c - M) * v c` with `M` the supremum over `A` is
    the state after `A`. -/
theorem State.of_real {s v : κ → ℝ} {A : Finset κ} {m l acc : EReal} (M : ℝ)
    (hsup : A.sup (fun c => (s c : EReal)) = (M : EReal)) (hm : m = (M : EReal))
    (hl : l = ((∑ c ∈ A, Real.exp (s c - M) : ℝ) : EReal))
    (hacc : acc = ((∑ c ∈ A, Real.exp (s c - M) * v c : ℝ) : EReal)) : State s v A m l acc := by
  have ht : m.toReal = M := by rw [hm, EReal.toReal_coe]
  exact ⟨hm.trans hsup.symm, by rw [hl, ht], by rw [hacc, ht]⟩

variable [DecidableEq κ]

/-- THE STEP. From the state after `A` and a nonempty tile `B` of further keys, the streaming update
    `m' = max m (max over B)`, `a = exp (m - m')`, `l' = a * l + ∑_B exp (s c - m')`,
    `acc' = a * acc + ∑_B exp (s c - m') * v c` is the state after `A ∪ B`. On the first tile `m = ⊥`,
    `exp ⊥ = 0` and the old terms vanish. -/
theorem State.step {s v : κ → ℝ} {A B : Finset κ} {m l acc m' : EReal} (h : State s v A m l acc)
    (hAB : Disjoint A B) (hB : B.Nonempty) (hm' : m' = max m (B.sup fun c => (s c : EReal))) :
    State s v (A ∪ B) m'
      (Ideal.exp (m - m') * l + ∑ c ∈ B, Ideal.exp ((s c : EReal) - m'))
      (Ideal.exp (m - m') * acc + ∑ c ∈ B, Ideal.exp ((s c : EReal) - m') * (v c : EReal)) := by
  have hBs := sup_coe B hB s
  rcases A.eq_empty_or_nonempty with rfl | hA
  · obtain ⟨rfl, rfl, rfl⟩ := h.eq_of_empty
    rw [hBs, bot_sup_eq] at hm'
    subst hm'
    refine State.of_real (B.sup' hB s) (by rw [Finset.empty_union, hBs]) rfl ?_ ?_
    · rw [EReal.bot_sub, Ideal.exp_bot, zero_mul, zero_add, Finset.empty_union, coe_sum]
      exact Finset.sum_congr rfl fun c _ => by rw [← EReal.coe_sub, Ideal.exp_coe]
    · rw [EReal.bot_sub, Ideal.exp_bot, zero_mul, zero_add, Finset.empty_union, coe_sum]
      exact Finset.sum_congr rfl fun c _ => by rw [← EReal.coe_sub, Ideal.exp_coe, EReal.coe_mul]
  · obtain ⟨rfl, rfl, rfl⟩ := h.eq_of_nonempty hA
    rw [hBs, ← coe_max] at hm'
    subst hm'
    set M := A.sup' hA s
    set M' := max M (B.sup' hB s)
    have hsum : ∀ f : κ → ℝ, (∑ c ∈ B, Ideal.exp ((s c : EReal) - (M' : EReal)) * (f c : EReal))
        = ((∑ c ∈ B, Real.exp (s c - M') * f c : ℝ) : EReal) := fun f => by
      rw [coe_sum]
      exact Finset.sum_congr rfl fun c _ => by rw [← EReal.coe_sub, Ideal.exp_coe, EReal.coe_mul]
    have hsum1 : (∑ c ∈ B, Ideal.exp ((s c : EReal) - (M' : EReal)))
        = ((∑ c ∈ B, Real.exp (s c - M') : ℝ) : EReal) := by
      rw [coe_sum]
      exact Finset.sum_congr rfl fun c _ => by rw [← EReal.coe_sub, Ideal.exp_coe]
    have hre : ∀ c, Real.exp (M - M') * Real.exp (s c - M) = Real.exp (s c - M') := fun c => by
      rw [← Real.exp_add]; congr 1; ring
    refine State.of_real M' ?_ rfl ?_ ?_
    · rw [Finset.sup_union, sup_coe A hA s, hBs, ← coe_max]
    · rw [hsum1, ← EReal.coe_sub, Ideal.exp_coe, ← EReal.coe_mul, ← EReal.coe_add, Finset.sum_union hAB,
        Finset.mul_sum]
      exact congrArg _ (congrArg (· + _) (Finset.sum_congr rfl fun c _ => hre c))
    · rw [hsum v, ← EReal.coe_sub, Ideal.exp_coe, ← EReal.coe_mul, ← EReal.coe_add, Finset.sum_union hAB,
        Finset.mul_sum]
      exact congrArg _ (congrArg (· + _) (Finset.sum_congr rfl fun c _ => by rw [← mul_assoc, hre c]))

/-- The step with the tile given as the injective image of a finite index type `ι` (the positions inside a
    tile): the maximum is a fold of `max` from `⊥` over the positions and the sums run over the positions. -/
theorem State.step_image {ι : Type*} [Fintype ι] [Nonempty ι] {s v : κ → ℝ} {A : Finset κ} {m l acc m' : EReal}
    (h : State s v A m l acc) (e : ι → κ) (he : Function.Injective e) (hA : ∀ j, e j ∉ A)
    (hm' : m' = max m (Finset.univ.fold max ⊥ fun j => (s (e j) : EReal))) :
    State s v (A ∪ Finset.univ.image e) m'
      (Ideal.exp (m - m') * l + ∑ j, Ideal.exp ((s (e j) : EReal) - m'))
      (Ideal.exp (m - m') * acc + ∑ j, Ideal.exp ((s (e j) : EReal) - m') * (v (e j) : EReal)) := by
  have hdisj : Disjoint A (Finset.univ.image e) := by
    rw [Finset.disjoint_right]
    intro c hc
    obtain ⟨j, -, rfl⟩ := Finset.mem_image.1 hc
    exact hA j
  have hne : (Finset.univ.image e).Nonempty := Finset.univ_nonempty.image e
  have := h.step hdisj hne (m' := m') (by rw [hm', fold_max_bot, Finset.sup_image]; rfl)
  rwa [Finset.sum_image fun a _ b _ hab => he hab, Finset.sum_image fun a _ b _ hab => he hab] at this

/-- THE END. After a nonempty key set the quotient `acc / l` is the softmax-weighted sum of the values, each
    weight `exp (s c - M) / L` with `M` the supremum of the scores and `L = ∑ exp (s c - M)`, in the
    extended-real operations. -/
theorem State.div_eq {s v : κ → ℝ} {A : Finset κ} {m l acc Mx L : EReal} (h : State s v A m l acc)
    (hA : A.Nonempty) (hMx : Mx = A.sup fun c => (s c : EReal))
    (hL : L = ∑ c ∈ A, Ideal.exp ((s c : EReal) - Mx)) :
    Ideal.div acc l = ∑ c ∈ A, Ideal.div (Ideal.exp ((s c : EReal) - Mx)) L * (v c : EReal) := by
  obtain ⟨rfl, rfl, rfl⟩ := h.eq_of_nonempty hA
  rw [sup_coe A hA s] at hMx
  subst hMx
  set M := A.sup' hA s
  have hL' : L = ((∑ c ∈ A, Real.exp (s c - M) : ℝ) : EReal) := by
    rw [hL, coe_sum]
    exact Finset.sum_congr rfl fun c _ => by rw [← EReal.coe_sub, Ideal.exp_coe]
  subst hL'
  have hpos : (0 : ℝ) < ∑ c ∈ A, Real.exp (s c - M) := Finset.sum_pos (fun c _ => Real.exp_pos _) hA
  have hne : (∑ c ∈ A, Real.exp (s c - M)) ≠ 0 := hpos.ne'
  rw [Ideal.div_coe hne, ← EReal.coe_mul, Finset.sum_mul, coe_sum]
  exact Finset.sum_congr rfl fun c _ => by
    rw [Ideal.div_coe hne, ← EReal.coe_sub, Ideal.exp_coe, ← EReal.coe_mul, ← EReal.coe_mul]
    congr 1; ring

end OnlineSoftmax
-- ==== Proof.FlashPayloads.lean ====
import proofs.«100506_j39728447488156_2_alg».proof.Proof.Gen.KernelIdeal.Skeleton
import proofs.«100506_j39728447488156_2_alg».proof.Proof.LibOnlineSoftmax
import Idealize.ShloMosaic.PureOps.Ideal.Laws
import Idealize.ShloMosaic.Lib.ValueIdx
import Idealize.ShloMosaic.Lib.ValueLayout
import Idealize.ShloMosaic.Lib.Pipeline.Value

/-!
# The flash-attention body's values, read at an index on the extended reals

Each pure value of the second region's body (the generated payload terms) read at one index: the score tile as inner
products, the running maximum as a fold of `max`, the weights as exponentials of differences, the running denominator
and accumulator as the rescaled old value plus the tile's sum, the written block as a quotient, and the initial
constants.
-/

noncomputable section

open scoped BigOperators

namespace Cert.KernelIdeal.FlashValue

open Idealize.ShloMosaic Idealize.SL.Sem Idealize.ShloMosaic.ValueIdx
open Cert.KernelIdeal Cert.KernelIdeal.Gen

/-- The f32 word of minus infinity denotes the bottom element. -/
theorem ofBits_negInf : Ideal.ofBits .f32 0xFF800000#32 = (⊥ : EReal) := by simp [Ideal.ofBits, Ideal.ieee]

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) := by
  refine shapeCast_apply v h (ix2 p u) (ix1 p) ?_
  rw [Shape.rowMajor_val_one, Shape.rowMajor_val_two]
  show p.val = p.val * 1 + u.val
  have := u.isLt; omega

/-- The score tile: entry `(r, c)` is the inner product of query row `r` and key row `c`. -/
theorem pay7_apply (x3 : Vec Ideal S1024x1024 .f32) (x5 : Vec Ideal S512x1024 .f32) (r : Fin 1024) (c : Fin 512) :
    k1_pay7 (F := Ideal) x3 x5 (ix2 r c) = ∑ d : Fin 1024, x3 (ix2 r d) * x5 (ix2 c d) := by
  unfold k1_pay7
  simp only [shapeCast_self]
  refine (Ideal.matmul_constant_zero_apply _ _ _ _ _).trans ?_
  rw [← Equiv.sum_comp (contrEquiv1 dot_S1024x1024_S1024x512_S1024x512_1_0_0_1_n_n 1024 rfl rfl).symm]
  refine Finset.sum_congr rfl fun d _ => ?_
  congr 1
  · refine congrArg x3 (funext fun a => ?_)
    match a with
    | ⟨0, _⟩ => first | rfl | exact Fin.ext rfl
    | ⟨1, _⟩ => first | rfl | exact Fin.ext rfl
  · have hidx : dot_S1024x1024_S1024x512_S1024x512_1_0_0_1_n_n.rhsIdx (ix2 r c)
        ((contrEquiv1 dot_S1024x1024_S1024x512_S1024x512_1_0_0_1_n_n 1024 rfl rfl).symm d) = ix2 d c := by
      funext a
      match a with
      | ⟨0, _⟩ => first | rfl | exact Fin.ext rfl
      | ⟨1, _⟩ => first | rfl | exact Fin.ext rfl
    rw [hidx]
    exact transpose_ix2_apply x5 _ d c

/-- The new running maximum of row `r`: the old one against the fold of `max` from `⊥` over the tile's scores. -/
theorem pay8_apply (x3 : Vec Ideal S1024x1024 .f32) (x5 : Vec Ideal S512x1024 .f32) (x9 : Vec Ideal S1024x1 .f32)
    (r : Fin 1024) (u : Fin 1) :
    k1_pay8 (F := Ideal) x3 x5 x9 (ix2 r u)
      = max (x9 (ix2 r u)) ((Finset.univ : Finset (Fin 512)).fold max ⊥ fun c => k1_pay7 (F := Ideal) x3 x5 (ix2 r c)) := by
  unfold k1_pay8
  refine congrArg (max (x9 (ix2 r u))) ?_
  refine (shapeCast_a_a1_apply _ _ r u).trans ?_
  refine (Ideal.multiReduction_maximumf_single _ _ _ _ _ _).trans ?_
  have hb : FloatOps.ofBits (F := Ideal) .f32 0xFF800000#32 = (⊥ : EReal) := ofBits_negInf
  have hf : (k1_pay7 (F := Ideal) x3 x5 ∘ reduces_S1024x512_S1024.lift (ix1 r))
      = fun c : Fin 512 => k1_pay7 (F := Ideal) x3 x5 (ix2 r c) := by
    funext c
    refine congrArg (k1_pay7 (F := Ideal) x3 x5) (funext fun a => ?_)
    match a with
    | ⟨0, _⟩ => first | rfl | exact Fin.ext rfl
    | ⟨1, _⟩ => first | rfl | exact Fin.ext rfl
  rw [hb, hf]
  rfl

/-- The rescaling factor of row `r`: `exp (m - m')`. -/
theorem pay9_apply (x3 : Vec Ideal S1024x1024 .f32) (x5 : Vec Ideal S512x1024 .f32) (x9 x13 : Vec Ideal S1024x1 .f32)
    (i : S1024x1.Idx) :
    k1_pay9 (F := Ideal) x3 x5 x9 x13 i = Ideal.exp (x13 i - k1_pay8 (F := Ideal) x3 x5 x9 i) := rfl

/-- The tile's unnormalised weights: `exp (s - m')`. -/
theorem pay10_apply (x3 : Vec Ideal S1024x1024 .f32) (x5 : Vec Ideal S512x1024 .f32) (x9 : Vec Ideal S1024x1 .f32)
    (r : Fin 1024) (c : Fin 512) :
    k1_pay10 (F := Ideal) x3 x5 x9 (ix2 r c)
      = Ideal.exp (k1_pay7 (F := Ideal) x3 x5 (ix2 r c) - k1_pay8 (F := Ideal) x3 x5 x9 (ix2 r (0 : Fin 1))) := by
  unfold k1_pay10
  show Ideal.exp (k1_pay7 (F := Ideal) x3 x5 (ix2 r c) - broadcastTo S1024x512 (k1_pay8 (F := Ideal) x3 x5 x9) _ (ix2 r c)) = _
  rw [broadcastTo_a1_ab_apply]

/-- The new running denominator of row `r`: `a * l + ∑ p`. -/
theorem pay11_apply (x3 : Vec Ideal S1024x1024 .f32) (x5 : Vec Ideal S512x1024 .f32) (x9 x13 x19 : Vec Ideal S1024x1 .f32)
    (r : Fin 1024) (u : Fin 1) :
    k1_pay11 (F := Ideal) x3 x5 x9 x13 x19 (ix2 r u)
      = k1_pay9 (F := Ideal) x3 x5 x9 x13 (ix2 r u) * x19 (ix2 r u)
        + ∑ c : Fin 512, k1_pay10 (F := Ideal) x3 x5 x9 (ix2 r c) := by
  unfold k1_pay11
  simp only [shapeCast_self]
  refine congrArg (k1_pay9 (F := Ideal) x3 x5 x9 x13 (ix2 r u) * x19 (ix2 r u) + ·) ?_
  refine (shapeCast_a_a1_apply _ _ r u).trans ?_
  refine (Ideal.multiReduction_add_single _ _ _ _ _ _).trans ?_
  refine Finset.sum_congr rfl fun c _ => ?_
  refine congrArg (k1_pay10 (F := Ideal) x3 x5 x9) (funext fun a => ?_)
  match a with
  | ⟨0, _⟩ => first | rfl | exact Fin.ext rfl
  | ⟨1, _⟩ => first | rfl | exact Fin.ext rfl

/-- The rescaled accumulator: `a * acc`. -/
theorem pay12_apply (x3 : Vec Ideal S1024x1024 .f32) (x5 : Vec Ideal S512x1024 .f32) (x9 x13 : Vec Ideal S1024x1 .f32)
    (x29 : Vec Ideal S1024x1024 .f32) (r d : Fin 1024) :
    k1_pay12 (F := Ideal) x3 x5 x9 x13 x29 (ix2 r d)
      = k1_pay9 (F := Ideal) x3 x5 x9 x13 (ix2 r (0 : Fin 1)) * x29 (ix2 r d) := by
  unfold k1_pay12
  show broadcastTo S1024x1024 (k1_pay9 (F := Ideal) x3 x5 x9 x13) _ (ix2 r d) * x29 (ix2 r d) = _
  rw [broadcastTo_a1_ab_apply]

/-- The tile's contribution to the accumulator: `∑ p * v`. -/
theorem pay13_apply (x3 : Vec Ideal S1024x1024 .f32) (x5 : Vec Ideal S512x1024 .f32) (x9 : Vec Ideal S1024x1 .f32)
    (x27 : Vec Ideal S512x1024 .bf16) (r d : Fin 1024) :
    k1_pay13 (F := Ideal) x3 x5 x9 x27 (ix2 r d)
      = ∑ c : Fin 512, k1_pay10 (F := Ideal) x3 x5 x9 (ix2 r c) * x27 (ix2 c d) := by
  unfold k1_pay13
  simp only [shapeCast_self]
  refine (Ideal.matmul_constant_zero_apply (φ₁ := .bf16) (φ₂ := .bf16) dot_S1024x512_S512x1024_S1024x1024_1_0_0_1_n_n none
    (truncf .bf16 (k1_pay10 (F := Ideal) x3 x5 x9) bitsLt_bf16_f32) x27 (ix2 r d)).trans ?_
  rw [← Equiv.sum_comp (contrEquiv1 dot_S1024x512_S512x1024_S1024x1024_1_0_0_1_n_n 512 rfl rfl).symm]
  refine Finset.sum_congr rfl fun c _ => ?_
  congr 1
  · show k1_pay10 (F := Ideal) x3 x5 x9 _ = _
    refine congrArg (k1_pay10 (F := Ideal) x3 x5 x9) (funext fun a => ?_)
    match a with
    | ⟨0, _⟩ => first | rfl | exact Fin.ext rfl
    | ⟨1, _⟩ => first | rfl | exact Fin.ext rfl
  · refine congrArg x27 (funext fun a => ?_)
    match a with
    | ⟨0, _⟩ => first | rfl | exact Fin.ext rfl
    | ⟨1, _⟩ => first | rfl | exact Fin.ext rfl

/-- The new accumulator: the sum of the two parts. -/
theorem pay1_apply (v31 v33 : FVec Ideal S1024x1024 .f32) (i : S1024x1024.Idx) :
    k1_pay1 (F := Ideal) v31 v33 i = v31 i + v33 i := by
  unfold k1_pay1
  simp only [shapeCast_self]
  rfl

/-- The stored running maximum is the new one. -/
theorem pay2_eq (v12 : FVec Ideal S1024x1 .f32) : k1_pay2 (F := Ideal) v12 = v12 := by
  unfold k1_pay2
  simp only [shapeCast_self]

/-- The written block: `acc / l`. -/
theorem pay3_apply (v44 : Vec Ideal S1024x1024 .f32) (v45 : Vec Ideal S1024x1 .f32) (r d : Fin 1024) :
    k1_pay3 (F := Ideal) v44 v45 (ix2 r d) = Ideal.div (v44 (ix2 r d)) (v45 (ix2 r (0 : Fin 1))) := by
  unfold k1_pay3
  show Ideal.div (v44 (ix2 r d)) (broadcastTo S1024x1024 v45 _ (ix2 r d)) = _
  rw [broadcastTo_a1_ab_apply]

/-- The initial running maximum is `⊥` everywhere. -/
theorem pay4_apply (i : S1024x1.Idx) : k1_pay4 (F := Ideal) i = (⊥ : EReal) := by
  unfold k1_pay4
  simp only [shapeCast_self]
  exact ofBits_negInf

/-- The initial running denominator is `0` everywhere. -/
theorem pay5_apply (i : S1024x1.Idx) : k1_pay5 (F := Ideal) i = (0 : EReal) := by
  unfold k1_pay5
  simp only [shapeCast_self]
  exact Ideal.ofBits_zero_f32

/-- The initial accumulator is `0` everywhere. -/
theorem pay6_apply (i : S1024x1024.Idx) : k1_pay6 (F := Ideal) i = (0 : EReal) := by
  unfold k1_pay6
  simp only [shapeCast_self]
  exact Ideal.ofBits_zero_f32

end Cert.KernelIdeal.FlashValue
-- ==== Proof.FlashStep.lean ====
import proofs.«100506_j39728447488156_2_alg».proof.Proof.FlashPayloads
import proofs.«100506_j39728447488156_2_alg».proof.Proof.Spec

/-!
# One key tile keeps the streaming-softmax state; the scratch after each tile; the written block

The body's new scratch contents, read at a row and a column, are the streaming update of the old ones by the tile's
scores and values; by induction over the key tiles the scratch holds the state over the keys seen so far, and the
quotient written after the last tile is the specification's attention entry.
-/

noncomputable section

open scoped BigOperators

namespace Cert.KernelIdeal.FlashValue

open Idealize.ShloMosaic Idealize.SL.Sem Idealize.ShloMosaic.ValueIdx
open Cert.KernelIdeal Cert.KernelIdeal.Gen OnlineSoftmax

/-- The initial scratch contents are the state after no key. -/
theorem init_state {κ : Type*} (s v : κ → ℝ) (i : S1024x1.Idx) (j : S1024x1024.Idx) :
    State s v ∅ (k1_pay4 (F := Ideal) i) (k1_pay5 (F := Ideal) i) (k1_pay6 (F := Ideal) j) := by
  rw [pay4_apply, pay5_apply, pay6_apply]
  exact State.empty s v

/-- ONE KEY TILE. If, at row `r` and column `d`, the scratch holds the state after the keys of `A`, the tile's scores of row
    `r` are the real scores of the keys `e c` and the tile's values in column `d` the real values of those keys, then the
    body's new scratch contents hold the state after `A` and the tile's keys. -/
theorem tile_step {κ : Type*} [DecidableEq κ] (s v : κ → ℝ) (A : Finset κ) (e : Fin 512 → κ)
    (he : Function.Injective e) (hA : ∀ c, e c ∉ A)
    (x3 : Vec Ideal S1024x1024 .f32) (x5 : Vec Ideal S512x1024 .f32) (x9 x19 : Vec Ideal S1024x1 .f32)
    (x27 : Vec Ideal S512x1024 .bf16) (x29 : Vec Ideal S1024x1024 .f32) (r d : Fin 1024)
    (hs : ∀ c, k1_pay7 (F := Ideal) x3 x5 (ix2 r c) = (s (e c) : EReal))
    (hv : ∀ c, x27 (ix2 c d) = (v (e c) : EReal))
    (h : State s v A (x9 (ix2 r (0 : Fin 1))) (x19 (ix2 r (0 : Fin 1))) (x29 (ix2 r d))) :
    State s v (A ∪ Finset.univ.image e)
      (k1_pay8 (F := Ideal) x3 x5 x9 (ix2 r (0 : Fin 1)))
      (k1_pay11 (F := Ideal) x3 x5 x9 x9 x19 (ix2 r (0 : Fin 1)))
      (k1_pay1 (F := Ideal) (k1_pay12 (F := Ideal) x3 x5 x9 x9 x29) (k1_pay13 (F := Ideal) x3 x5 x9 x27) (ix2 r d)) := by
  have h8 : k1_pay8 (F := Ideal) x3 x5 x9 (ix2 r (0 : Fin 1))
      = max (x9 (ix2 r (0 : Fin 1))) ((Finset.univ : Finset (Fin 512)).fold max ⊥ fun c => (s (e c) : EReal)) := by
    rw [pay8_apply]
    exact congrArg (fun f => max (x9 (ix2 r (0 : Fin 1))) ((Finset.univ : Finset (Fin 512)).fold max ⊥ f)) (funext hs)
  have := h.step_image e he hA h8
  rw [pay11_apply, pay1_apply, pay12_apply, pay13_apply, pay9_apply]
  simp only [pay10_apply, hs, hv]
  exact this

/-- THE WRITTEN BLOCK. If the scratch holds the state after a nonempty key set `A`, the quotient written back at row
    `r`, column `d` is the softmax-weighted sum of the values over `A`. -/
theorem tile_final {κ : Type*} [DecidableEq κ] (s v : κ → ℝ) (A : Finset κ) (hA : A.Nonempty) (v44 : Vec Ideal S1024x1024 .f32)
    (v45 : Vec Ideal S1024x1 .f32) (m : EReal) (r d : Fin 1024)
    (h : State s v A m (v45 (ix2 r (0 : Fin 1))) (v44 (ix2 r d))) :
    k1_pay3 (F := Ideal) v44 v45 (ix2 r d)
      = ∑ c ∈ A, Ideal.div (Ideal.exp ((s c : EReal) - A.sup fun c => (s c : EReal)))
          (∑ c' ∈ A, Ideal.exp ((s c' : EReal) - A.sup fun c => (s c : EReal))) * (v c : EReal) := by
  rw [pay3_apply]
  exact h.div_eq hA rfl rfl

/-! ## The keys seen after `k` tiles -/

/-- The keys of the first `k` key tiles (512 keys each). -/
def keysBefore (k : ℕ) : Finset (Fin 8192) := Finset.univ.filter fun j => j.val < 512 * k

/-- Key `c` of key tile `k`. -/
def keyOf (k : ℕ) (hk : k < 16) (c : Fin 512) : Fin 8192 := ⟨512 * k + c.val, by have := c.isLt; omega⟩

theorem keyOf_val (k : ℕ) (hk : k < 16) (c : Fin 512) : (keyOf k hk c).val = 512 * k + c.val := rfl

theorem keyOf_injective (k : ℕ) (hk : k < 16) : Function.Injective (keyOf k hk) := fun a b h => by
  have := congrArg Fin.val h
  rw [keyOf_val, keyOf_val] at this
  exact Fin.ext (by omega)

theorem keyOf_not_mem (k : ℕ) (hk : k < 16) (c : Fin 512) : keyOf k hk c ∉ keysBefore k := by
  simp only [keysBefore, Finset.mem_filter, Finset.mem_univ, true_and, keyOf_val]
  omega

theorem keysBefore_zero : keysBefore 0 = ∅ := by
  ext j
  simp [keysBefore]

theorem keysBefore_succ (k : ℕ) (hk : k < 16) :
    keysBefore (k + 1) = keysBefore k ∪ Finset.univ.image (keyOf k hk) := by
  ext j
  simp only [keysBefore, Finset.mem_filter, Finset.mem_univ, true_and, Finset.mem_union, Finset.mem_image]
  constructor
  · intro h
    by_cases h' : j.val < 512 * k
    · exact Or.inl h'
    · exact Or.inr ⟨⟨j.val - 512 * k, by omega⟩, Fin.ext (by rw [keyOf_val]; show 512 * k + (j.val - 512 * k) = j.val; omega)⟩
  · rintro (h | ⟨c, rfl⟩)
    · omega
    · have := c.isLt
      rw [keyOf_val]; omega

theorem keysBefore_sixteen : keysBefore 16 = Finset.univ := by
  ext j
  have := j.isLt
  simp only [keysBefore, Finset.mem_filter, Finset.mem_univ, true_and, iff_true]
  omega

/-! ## The scratch after each key tile -/

/-- THE INDUCTION. Sequences `M`, `L`, `ACC` that start at the reset constants and advance by the body's payloads over the
    key tiles `Kt k`, `Vt k` of real arrays hold, at every row and column and after `k` tiles, the streaming-softmax
    state over the first `512 k` keys, for the scores `∑ e, q r e * k j e`. -/
theorem scratch_state (Q : Vec Ideal S1024x1024 .f32) (Kt : ℕ → Vec Ideal S512x1024 .f32)
    (Vt : ℕ → Vec Ideal S512x1024 .bf16) (M L : ℕ → Vec Ideal S1024x1 .f32) (ACC : ℕ → Vec Ideal S1024x1024 .f32)
    (hM0 : M 0 = k1_pay4 (F := Ideal)) (hL0 : L 0 = k1_pay5 (F := Ideal)) (hA0 : ACC 0 = k1_pay6 (F := Ideal))
    (hM : ∀ k, k < 16 → M (k + 1) = k1_pay8 (F := Ideal) Q (Kt k) (M k))
    (hL : ∀ k, k < 16 → L (k + 1) = k1_pay11 (F := Ideal) Q (Kt k) (M k) (M k) (L k))
    (hACC : ∀ k, k < 16 → ACC (k + 1)
      = k1_pay1 (F := Ideal) (k1_pay12 (F := Ideal) Q (Kt k) (M k) (M k) (ACC k)) (k1_pay13 (F := Ideal) Q (Kt k) (M k) (Vt k)))
    (qr : Fin 1024 → Fin 1024 → ℝ) (kr vr : Fin 8192 → Fin 1024 → ℝ)
    (hq : ∀ r d, Q (ix2 r d) = (qr r d : EReal))
    (hk : ∀ k (hk : k < 16) (c : Fin 512) (d : Fin 1024), Kt k (ix2 c d) = (kr (keyOf k hk c) d : EReal))
    (hv : ∀ k (hk : k < 16) (c : Fin 512) (d : Fin 1024), Vt k (ix2 c d) = (vr (keyOf k hk c) d : EReal))
    (r d : Fin 1024) :
    ∀ k, k ≤ 16 → State (fun j => ∑ e : Fin 1024, qr r e * kr j e) (fun j => vr j d) (keysBefore k)
      (M k (ix2 r (0 : Fin 1))) (L k (ix2 r (0 : Fin 1))) (ACC k (ix2 r d)) := by
  intro k
  induction k with
  | zero =>
    intro _
    rw [hM0, hL0, hA0, keysBefore_zero]
    exact init_state _ _ _ _
  | succ k ih =>
    intro hk1
    have hk' : k < 16 := hk1
    rw [hM k hk', hL k hk', hACC k hk', keysBefore_succ k hk']
    refine tile_step _ _ _ (keyOf k hk') (keyOf_injective k hk') (keyOf_not_mem k hk') Q (Kt k) (M k) (L k) (Vt k) (ACC k)
      r d (fun c => ?_) (fun c => hv k hk' c d) (ih (Nat.le_of_lt hk'))
    rw [pay7_apply, coe_sum]
    exact Finset.sum_congr rfl fun e _ => by rw [hq, hk k hk', EReal.coe_mul]

/-- The specification's attention entry for real `q`, `k`, `v`: the softmax-weighted sum with the supremum of the real
    scores as the row maximum. -/
theorem attnAt_eq (q k v : Cert.Spec.Rows) (R : Fin 8192) (d : Fin 1024) (qr : Fin 1024 → ℝ)
    (kr : Fin 8192 → Fin 1024 → ℝ) (vr : Fin 8192 → ℝ)
    (hq : ∀ e, q (ix2 R e) = (qr e : EReal)) (hk : ∀ j e, k (ix2 j e) = (kr j e : EReal))
    (hv : ∀ j, v (ix2 j d) = (vr j : EReal)) :
    Cert.Spec.attnAt q k v R d
      = ∑ j ∈ (Finset.univ : Finset (Fin 8192)),
          Ideal.div (Ideal.exp (((∑ e : Fin 1024, qr e * kr j e : ℝ) : EReal)
              - (Finset.univ : Finset (Fin 8192)).sup fun j => ((∑ e : Fin 1024, qr e * kr j e : ℝ) : EReal)))
            (∑ j' ∈ (Finset.univ : Finset (Fin 8192)), Ideal.exp (((∑ e : Fin 1024, qr e * kr j' e : ℝ) : EReal)
              - (Finset.univ : Finset (Fin 8192)).sup fun j => ((∑ e : Fin 1024, qr e * kr j e : ℝ) : EReal)))
          * (vr j : EReal) := by
  have hsc : ∀ j, Cert.Spec.scoreAt q k R j = ((∑ e : Fin 1024, qr e * kr j e : ℝ) : EReal) := fun j => by
    unfold Cert.Spec.scoreAt
    rw [coe_sum]
    exact Finset.sum_congr rfl fun e _ => by rw [hq, hk, EReal.coe_mul]
  have hmx : Cert.Spec.rowMax q k R
      = (Finset.univ : Finset (Fin 8192)).sup fun j => ((∑ e : Fin 1024, qr e * kr j e : ℝ) : EReal) := by
    rw [Cert.Spec.rowMax_eq, fold_max_bot]
    exact congrArg _ (funext hsc)
  unfold Cert.Spec.attnAt
  rw [Cert.Spec.rowSum_eq, hmx]
  simp only [hsc, hv]

end Cert.KernelIdeal.FlashValue
-- ==== Proof.FlashCases.lean ====
import proofs.«100506_j39728447488156_2_alg».proof.Proof.KI.Body1
import proofs.«100506_j39728447488156_2_alg».proof.Proof.FlashPieces
import proofs.«100506_j39728447488156_2_alg».proof.Proof.FlashStep

/-!
# The body's three cases, over variables

Each buffer the body leaves, as a payload term at the ideal values, and the streaming-softmax state carried through one
grid point in each of the body's cases, stated over variables of the literal block types.
-/

set_option maxRecDepth 16384

noncomputable section

namespace Cert.KernelIdeal.FlashValue

open Cert.KernelIdeal Cert.KernelIdeal.Gen Cert.KernelIdeal.Fr
open Idealize.ShloMosaic Idealize.ShloMosaic.TcCoe Idealize.ShloMosaic.ValueIdx
open Idealize.SL.Sem OnlineSoftmax
open Idealize.ShloMosaic.Pipeline (Dat Cfg Window)

/-! ## The found pieces as payload terms, at the ideal values -/

/-- First key tile: the running maximum the body leaves. -/
theorem sM_A_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec Ideal S1024x1024 .f32) (x1 : Vec Ideal S512x1024 .f32) (x2 : Vec Ideal S512x1024 .bf16)  :
    sM_A (F := Ideal) c i arg2 harg2 arg3 harg3 arg4 harg4 arg5 harg5 arg6 harg6 arg7 harg7 arg8 harg8 hc0 hc1 x0 x1 x2 = k1_pay8 (F := Ideal) x0 x1 (k1_pay4 (F := Ideal)) :=
  (piece_A_M (F := Ideal) c i arg2 harg2 arg3 harg3 arg4 harg4 arg5 harg5 arg6 harg6 arg7 harg7 arg8 harg8 hc0 hc1 x0 x1 x2).trans (pay2_eq _)

/-- First key tile: the normaliser the body leaves. -/
theorem sL_A_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec Ideal S1024x1024 .f32) (x1 : Vec Ideal S512x1024 .f32) (x2 : Vec Ideal S512x1024 .bf16)  :
    sL_A (F := Ideal) c i arg2 harg2 arg3 harg3 arg4 harg4 arg5 harg5 arg6 harg6 arg7 harg7 arg8 harg8 hc0 hc1 x0 x1 x2 = k1_pay11 (F := Ideal) x0 x1 (k1_pay4 (F := Ideal)) (k1_pay4 (F := Ideal)) (k1_pay5 (F := Ideal)) :=
  piece_A_L (F := Ideal) c i arg2 harg2 arg3 harg3 arg4 harg4 arg5 harg5 arg6 harg6 arg7 harg7 arg8 harg8 hc0 hc1 x0 x1 x2

/-- First key tile: the accumulator the body leaves. -/
theorem sA_A_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec Ideal S1024x1024 .f32) (x1 : Vec Ideal S512x1024 .f32) (x2 : Vec Ideal S512x1024 .bf16)  :
    sA_A (F := Ideal) c i arg2 harg2 arg3 harg3 arg4 harg4 arg5 harg5 arg6 harg6 arg7 harg7 arg8 harg8 hc0 hc1 x0 x1 x2 = k1_pay1 (F := Ideal) (k1_pay12 (F := Ideal) x0 x1 (k1_pay4 (F := Ideal)) (k1_pay4 (F := Ideal)) (k1_pay6 (F := Ideal))) (k1_pay13 (F := Ideal) x0 x1 (k1_pay4 (F := Ideal)) x2) :=
  piece_A_A (F := Ideal) c i arg2 harg2 arg3 harg3 arg4 harg4 arg5 harg5 arg6 harg6 arg7 harg7 arg8 harg8 hc0 hc1 x0 x1 x2

/-- Middle key tile: the running maximum the body leaves. -/
theorem sM_B_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    sM_B (F := Ideal) c i arg2 harg2 arg3 harg3 arg4 harg4 arg5 harg5 arg6 harg6 arg7 harg7 arg8 harg8 hc0 hc1 x0 x1 x2 xs0 xs1 xs2 = k1_pay8 (F := Ideal) x0 x1 xs0 :=
  (piece_B_M (F := Ideal) c i arg2 harg2 arg3 harg3 arg4 harg4 arg5 harg5 arg6 harg6 arg7 harg7 arg8 harg8 hc0 hc1 x0 x1 x2 xs0 xs1 xs2).trans (pay2_eq _)

/-- Middle key tile: the normaliser the body leaves. -/
theorem sL_B_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    sL_B (F := Ideal) c i arg2 harg2 arg3 harg3 arg4 harg4 arg5 harg5 arg6 harg6 arg7 harg7 arg8 harg8 hc0 hc1 x0 x1 x2 xs0 xs1 xs2 = k1_pay11 (F := Ideal) x0 x1 xs0 xs0 xs1 :=
  piece_B_L (F := Ideal) c i arg2 harg2 arg3 harg3 arg4 harg4 arg5 harg5 arg6 harg6 arg7 harg7 arg8 harg8 hc0 hc1 x0 x1 x2 xs0 xs1 xs2

/-- Middle key tile: the accumulator the body leaves. -/
theorem sA_B_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    sA_B (F := Ideal) c i arg2 harg2 arg3 harg3 arg4 harg4 arg5 harg5 arg6 harg6 arg7 harg7 arg8 harg8 hc0 hc1 x0 x1 x2 xs0 xs1 xs2 = k1_pay1 (F := Ideal) (k1_pay12 (F := Ideal) x0 x1 xs0 xs0 xs2) (k1_pay13 (F := Ideal) x0 x1 xs0 x2) :=
  piece_B_A (F := Ideal) c i arg2 harg2 arg3 harg3 arg4 harg4 arg5 harg5 arg6 harg6 arg7 harg7 arg8 harg8 hc0 hc1 x0 x1 x2 xs0 xs1 xs2

/-- Last key tile: the running maximum the body leaves. -/
theorem sM_C_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    sM_C (F := Ideal) c i arg2 harg2 arg3 harg3 arg4 harg4 arg5 harg5 arg6 harg6 arg7 harg7 arg8 harg8 hc0 hc1 x0 x1 x2 xs0 xs1 xs2 = k1_pay8 (F := Ideal) x0 x1 xs0 :=
  (piece_C_M (F := Ideal) c i arg2 harg2 arg3 harg3 arg4 harg4 arg5 harg5 arg6 harg6 arg7 harg7 arg8 harg8 hc0 hc1 x0 x1 x2 xs0 xs1 xs2).trans (pay2_eq _)

/-- Last key tile: the normaliser the body leaves. -/
theorem sL_C_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    sL_C (F := Ideal) c i arg2 harg2 arg3 harg3 arg4 harg4 arg5 harg5 arg6 harg6 arg7 harg7 arg8 harg8 hc0 hc1 x0 x1 x2 xs0 xs1 xs2 = k1_pay11 (F := Ideal) x0 x1 xs0 xs0 xs1 :=
  piece_C_L (F := Ideal) c i arg2 harg2 arg3 harg3 arg4 harg4 arg5 harg5 arg6 harg6 arg7 harg7 arg8 harg8 hc0 hc1 x0 x1 x2 xs0 xs1 xs2

/-- Last key tile: the accumulator the body leaves. -/
theorem sA_C_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    sA_C (F := Ideal) c i arg2 harg2 arg3 harg3 arg4 harg4 arg5 harg5 arg6 harg6 arg7 harg7 arg8 harg8 hc0 hc1 x0 x1 x2 xs0 xs1 xs2 = k1_pay1 (F := Ideal) (k1_pay12 (F := Ideal) x0 x1 xs0 xs0 xs2) (k1_pay13 (F := Ideal) x0 x1 xs0 x2) :=
  piece_C_A (F := Ideal) c i arg2 harg2 arg3 harg3 arg4 harg4 arg5 harg5 arg6 harg6 arg7 harg7 arg8 harg8 hc0 hc1 x0 x1 x2 xs0 xs1 xs2

/-- Last key tile: the output block the body stores, the quotient of the new accumulator by the new normaliser. -/
theorem o_C_eq (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32) :
    o_C (F := Ideal) c i arg2 harg2 arg3 harg3 arg4 harg4 arg5 harg5 arg6 harg6 arg7 harg7 arg8 harg8 hc0 hc1 x0 x1 x2 xs0 xs1 xs2 = k1_pay3 (F := Ideal) (k1_pay1 (F := Ideal) (k1_pay12 (F := Ideal) x0 x1 xs0 xs0 xs2) (k1_pay13 (F := Ideal) x0 x1 xs0 x2)) (k1_pay11 (F := Ideal) x0 x1 xs0 xs0 xs1) :=
  piece_C_O (F := Ideal) c i arg2 harg2 arg3 harg3 arg4 harg4 arg5 harg5 arg6 harg6 arg7 harg7 arg8 harg8 hc0 hc1 x0 x1 x2 xs0 xs1 xs2

/-! ## One grid point, over variables -/

/-- The update of scratch contents `m l a` by blocks whose entries are the reals `qr` (query row `r`), `kr` (the keys of
    tile `kk`) and `v` (their values in column `d`) carries the state over the first `kk` tiles to the first `kk + 1`. -/
theorem step_var (x0 : Vec Ideal S1024x1024 .f32) (x1 : Vec Ideal S512x1024 .f32) (x2 : Vec Ideal S512x1024 .bf16) (m l : Vec Ideal S1024x1 .f32) (a : Vec Ideal S1024x1024 .f32)
    (s v : Fin 8192 → ℝ) (kk : ℕ) (hkk : kk < 16) (qr : Fin 1024 → ℝ) (kr : Fin 8192 → Fin 1024 → ℝ)
    (hs : s = fun j => ∑ e : Fin 1024, qr e * kr j e) (r d : Fin 1024)
    (hx0 : ∀ e, x0 (ix2 r e) = (qr e : EReal)) (hx1 : ∀ c' e, x1 (ix2 c' e) = (kr (keyOf kk hkk c') e : EReal))
    (hx2 : ∀ c', x2 (ix2 c' d) = (v (keyOf kk hkk c') : EReal))
    (h : State s v (keysBefore kk) (m (ix2 r (0 : Fin 1))) (l (ix2 r (0 : Fin 1))) (a (ix2 r d))) :
    State s v (keysBefore (kk + 1)) ((k1_pay8 (F := Ideal) x0 x1 m) (ix2 r (0 : Fin 1))) ((k1_pay11 (F := Ideal) x0 x1 m m l) (ix2 r (0 : Fin 1)))
      ((k1_pay1 (F := Ideal) (k1_pay12 (F := Ideal) x0 x1 m m a) (k1_pay13 (F := Ideal) x0 x1 m x2)) (ix2 r d)) := by
  subst hs
  rw [keysBefore_succ kk hkk]
  refine tile_step _ _ _ (keyOf kk hkk) (keyOf_injective kk hkk) (keyOf_not_mem kk hkk) x0 x1 m l x2 a r d
    (fun c' => ?_) hx2 h
  rw [pay7_apply, coe_sum]
  exact Finset.sum_congr rfl fun e _ => by rw [hx0, hx1, EReal.coe_mul]

/-- First key tile: whatever the scratch held, the body leaves the state over the first tile. -/
theorem case_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 : Vec Ideal S1024x1024 .f32) (x1 : Vec Ideal S512x1024 .f32) (x2 : Vec Ideal S512x1024 .bf16)
    (s v : Fin 8192 → ℝ) (kk : ℕ) (hkk : kk < 16) (qr : Fin 1024 → ℝ) (kr : Fin 8192 → Fin 1024 → ℝ)
    (hs : s = fun j => ∑ e : Fin 1024, qr e * kr j e) (r d : Fin 1024)
    (hx0 : ∀ e, x0 (ix2 r e) = (qr e : EReal)) (hx1 : ∀ c' e, x1 (ix2 c' e) = (kr (keyOf kk hkk c') e : EReal))
    (hx2 : ∀ c', x2 (ix2 c' d) = (v (keyOf kk hkk c') : EReal)) (hk0 : kk = 0) :
    State s v (keysBefore (kk + 1)) (sM_A (F := Ideal) c i arg2 harg2 arg3 harg3 arg4 harg4 arg5 harg5 arg6 harg6 arg7 harg7 arg8 harg8 hc0 hc1 x0 x1 x2 (ix2 r (0 : Fin 1)))
      (sL_A (F := Ideal) c i arg2 harg2 arg3 harg3 arg4 harg4 arg5 harg5 arg6 harg6 arg7 harg7 arg8 harg8 hc0 hc1 x0 x1 x2 (ix2 r (0 : Fin 1))) (sA_A (F := Ideal) c i arg2 harg2 arg3 harg3 arg4 harg4 arg5 harg5 arg6 harg6 arg7 harg7 arg8 harg8 hc0 hc1 x0 x1 x2 (ix2 r d)) := by
  rw [sM_A_eq, sL_A_eq, sA_A_eq]
  refine step_var x0 x1 x2 _ _ _ s v kk hkk qr kr hs r d hx0 hx1 hx2 ?_
  subst hk0
  rw [keysBefore_zero]
  exact init_state _ _ _ _

/-- A middle key tile: the body carries the state over the earlier tiles to the state including this one. -/
theorem case_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32)
    (s v : Fin 8192 → ℝ) (kk : ℕ) (hkk : kk < 16) (qr : Fin 1024 → ℝ) (kr : Fin 8192 → Fin 1024 → ℝ)
    (hs : s = fun j => ∑ e : Fin 1024, qr e * kr j e) (r d : Fin 1024)
    (hx0 : ∀ e, x0 (ix2 r e) = (qr e : EReal)) (hx1 : ∀ c' e, x1 (ix2 c' e) = (kr (keyOf kk hkk c') e : EReal))
    (hx2 : ∀ c', x2 (ix2 c' d) = (v (keyOf kk hkk c') : EReal))
    (h : State s v (keysBefore kk) (xs0 (ix2 r (0 : Fin 1))) (xs1 (ix2 r (0 : Fin 1))) (xs2 (ix2 r d))) :
    State s v (keysBefore (kk + 1)) (sM_B (F := Ideal) c i arg2 harg2 arg3 harg3 arg4 harg4 arg5 harg5 arg6 harg6 arg7 harg7 arg8 harg8 hc0 hc1 x0 x1 x2 xs0 xs1 xs2 (ix2 r (0 : Fin 1)))
      (sL_B (F := Ideal) c i arg2 harg2 arg3 harg3 arg4 harg4 arg5 harg5 arg6 harg6 arg7 harg7 arg8 harg8 hc0 hc1 x0 x1 x2 xs0 xs1 xs2 (ix2 r (0 : Fin 1))) (sA_B (F := Ideal) c i arg2 harg2 arg3 harg3 arg4 harg4 arg5 harg5 arg6 harg6 arg7 harg7 arg8 harg8 hc0 hc1 x0 x1 x2 xs0 xs1 xs2 (ix2 r d)) := by
  rw [sM_B_eq, sL_B_eq, sA_B_eq]
  exact step_var x0 x1 x2 _ _ _ s v kk hkk qr kr hs r d hx0 hx1 hx2 h

/-- The last key tile: likewise for the scratch, -/
theorem case_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32)
    (s v : Fin 8192 → ℝ) (kk : ℕ) (hkk : kk < 16) (qr : Fin 1024 → ℝ) (kr : Fin 8192 → Fin 1024 → ℝ)
    (hs : s = fun j => ∑ e : Fin 1024, qr e * kr j e) (r d : Fin 1024)
    (hx0 : ∀ e, x0 (ix2 r e) = (qr e : EReal)) (hx1 : ∀ c' e, x1 (ix2 c' e) = (kr (keyOf kk hkk c') e : EReal))
    (hx2 : ∀ c', x2 (ix2 c' d) = (v (keyOf kk hkk c') : EReal))
    (h : State s v (keysBefore kk) (xs0 (ix2 r (0 : Fin 1))) (xs1 (ix2 r (0 : Fin 1))) (xs2 (ix2 r d))) :
    State s v (keysBefore (kk + 1)) (sM_C (F := Ideal) c i arg2 harg2 arg3 harg3 arg4 harg4 arg5 harg5 arg6 harg6 arg7 harg7 arg8 harg8 hc0 hc1 x0 x1 x2 xs0 xs1 xs2 (ix2 r (0 : Fin 1)))
      (sL_C (F := Ideal) c i arg2 harg2 arg3 harg3 arg4 harg4 arg5 harg5 arg6 harg6 arg7 harg7 arg8 harg8 hc0 hc1 x0 x1 x2 xs0 xs1 xs2 (ix2 r (0 : Fin 1))) (sA_C (F := Ideal) c i arg2 harg2 arg3 harg3 arg4 harg4 arg5 harg5 arg6 harg6 arg7 harg7 arg8 harg8 hc0 hc1 x0 x1 x2 xs0 xs1 xs2 (ix2 r d)) := by
  rw [sM_C_eq, sL_C_eq, sA_C_eq]
  exact step_var x0 x1 x2 _ _ _ s v kk hkk qr kr hs r d hx0 hx1 hx2 h

/-- and the output block it stores is the softmax-weighted sum of the values over all the keys seen. -/
theorem case_C_out (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 : Vec Ideal S1024x1024 .f32) (x1 : Vec Ideal S512x1024 .f32) (x2 : Vec Ideal S512x1024 .bf16) (xs0 : Vec Ideal S1024x1 .f32) (xs1 : Vec Ideal S1024x1 .f32) (xs2 : Vec Ideal S1024x1024 .f32)
    (s v : Fin 8192 → ℝ) (kk : ℕ) (hkk : kk < 16) (qr : Fin 1024 → ℝ) (kr : Fin 8192 → Fin 1024 → ℝ)
    (hs : s = fun j => ∑ e : Fin 1024, qr e * kr j e) (r d : Fin 1024)
    (hx0 : ∀ e, x0 (ix2 r e) = (qr e : EReal)) (hx1 : ∀ c' e, x1 (ix2 c' e) = (kr (keyOf kk hkk c') e : EReal))
    (hx2 : ∀ c', x2 (ix2 c' d) = (v (keyOf kk hkk c') : EReal))
    (h : State s v (keysBefore kk) (xs0 (ix2 r (0 : Fin 1))) (xs1 (ix2 r (0 : Fin 1))) (xs2 (ix2 r d))) :
    o_C (F := Ideal) c i arg2 harg2 arg3 harg3 arg4 harg4 arg5 harg5 arg6 harg6 arg7 harg7 arg8 harg8 hc0 hc1 x0 x1 x2 xs0 xs1 xs2 (ix2 r d)
      = ∑ j ∈ keysBefore (kk + 1), Ideal.div (Ideal.exp ((s j : EReal) - (keysBefore (kk + 1)).sup fun j => (s j : EReal)))
          (∑ j' ∈ keysBefore (kk + 1), Ideal.exp ((s j' : EReal) - (keysBefore (kk + 1)).sup fun j => (s j : EReal))) * (v j : EReal) := by
  rw [o_C_eq]
  refine tile_final s v (keysBefore (kk + 1)) ?_ _ _ _ r d (step_var x0 x1 x2 _ _ _ s v kk hkk qr kr hs r d hx0 hx1 hx2 h)
  rw [keysBefore_succ kk hkk]
  exact (Finset.univ_nonempty.image _).mono Finset.subset_union_right

end Cert.KernelIdeal.FlashValue
-- ==== Proof.FlashBlocks.lean ====
import proofs.«100506_j39728447488156_2_alg».proof.Proof.KI.Common
import Idealize.ShloMosaic.Lib.Pipeline.Value
import Idealize.ShloMosaic.Lib.ValueIdx

/-!
# Region 1's blocks read at an index

The query tile, key tile and value tile a grid point reads, at a local row and column, are the entries of the three
projected arrays at the global row: query tile `t / 16` (1024 rows each), key tile `t % 16` (512 rows each).
-/

set_option maxRecDepth 16384

noncomputable section

namespace Cert.KernelIdeal.FlashValue

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- Region 1 has 128 grid points. -/
theorem N1 : cfg1.N = 128 := rfl

/-- The query tile at local (r, d) is the query array at row `1024 (t / 16) + r`. -/
theorem iblk1_0_apply (c : Dev nD) (t : Fin cfg1.N) (r d : Fin 1024) (R : Fin 8192) (hR : R.val = 1024 * (t.val / 16) + r.val) :
    (iblk1 V c 0 t : Vec F S1024x1024 .f32) (ix2 r d) = (V c main_v6_0 : Vec F S8192x1024 .f32) (ix2 R d) := by
  have hi : win1_0.index t 0 = t.val / 16 ∧ win1_0.index t 1 = 0 :=
    (by decide +kernel : ∀ t : Fin grid1.N, win1_0.index t 0 = t.val / 16 ∧ win1_0.index t 1 = 0) t
  unfold iblk1
  rw [View.read_apply]
  show (V c main_v6_0 : Vec F S8192x1024 .f32) _ = _
  congr 1
  funext a
  apply Fin.ext
  match a with
  | ⟨0, _⟩ => show win1_0.index t 0 * 1024 + 1 * r.val = R.val; rw [hi.1, hR]; omega
  | ⟨1, _⟩ => show win1_0.index t 1 * 1024 + 1 * d.val = d.val; rw [hi.2]; omega

/-- The key tile at local (j, d) is the key array at row `512 (t % 16) + j`. -/
theorem iblk1_1_apply (c : Dev nD) (t : Fin cfg1.N) (j : Fin 512) (d : Fin 1024) (J : Fin 8192) (hJ : J.val = 512 * (t.val % 16) + j.val) :
    (iblk1 V c 1 t : Vec F S512x1024 .f32) (ix2 j d) = (V c main_v6_1 : Vec F S8192x1024 .f32) (ix2 J d) := by
  have hi : win1_1.index t 0 = t.val % 16 ∧ win1_1.index t 1 = 0 :=
    (by decide +kernel : ∀ t : Fin grid1.N, win1_1.index t 0 = t.val % 16 ∧ win1_1.index t 1 = 0) t
  unfold iblk1
  rw [View.read_apply]
  show (V c main_v6_1 : Vec F S8192x1024 .f32) _ = _
  congr 1
  funext a
  apply Fin.ext
  match a with
  | ⟨0, _⟩ => show win1_1.index t 0 * 512 + 1 * j.val = J.val; rw [hi.1, hJ]; omega
  | ⟨1, _⟩ => show win1_1.index t 1 * 1024 + 1 * d.val = d.val; rw [hi.2]; omega

/-- The value tile at local (j, d) is the value array at row `512 (t % 16) + j`. -/
theorem iblk1_2_apply (c : Dev nD) (t : Fin cfg1.N) (j : Fin 512) (d : Fin 1024) (J : Fin 8192) (hJ : J.val = 512 * (t.val % 16) + j.val) :
    (iblk1 V c 2 t : Vec F S512x1024 .bf16) (ix2 j d) = (V c main_v6_2 : Vec F S8192x1024 .bf16) (ix2 J d) := by
  have hi : win1_2.index t 0 = t.val % 16 ∧ win1_2.index t 1 = 0 :=
    (by decide +kernel : ∀ t : Fin grid1.N, win1_2.index t 0 = t.val % 16 ∧ win1_2.index t 1 = 0) t
  unfold iblk1
  rw [View.read_apply]
  show (V c main_v6_2 : Vec F S8192x1024 .bf16) _ = _
  congr 1
  funext a
  apply Fin.ext
  match a with
  | ⟨0, _⟩ => show win1_2.index t 0 * 512 + 1 * j.val = J.val; rw [hi.1, hJ]; omega
  | ⟨1, _⟩ => show win1_2.index t 1 * 1024 + 1 * d.val = d.val; rw [hi.2]; omega

end Cert.KernelIdeal.FlashValue
-- ==== Proof.FlashArr.lean ====
/-
  Region 1's output array from its blocks: the output window's block is written back only after the last key tile of each
  query tile, and those write-backs tile the array; so if each of them is the matching row block of a whole-array
  function, the array ends holding that function.
-/
import proofs.«100506_j39728447488156_2_alg».proof.Proof.KI.Body1
import proofs.«100506_j39728447488156_2_alg».proof.Proof.Spec
import Idealize.ShloMosaic.Lib.Pipeline.Value
import Idealize.ShloMosaic.Lib.ValueIdx
import Idealize.ShloMosaic.Lib.Decide

set_option maxRecDepth 16384

noncomputable section

open scoped BigOperators

namespace Cert.KernelIdeal.FlashValue

open Cert.KernelIdeal Cert.KernelIdeal.Gen Cert.KernelIdeal.Fr Idealize.ShloMosaic Idealize.ShloMosaic.TcCoe
  Idealize.ShloMosaic.ValueIdx Idealize.SL.Sem
open Idealize.ShloMosaic.Pipeline (Dat)

/-- The output window's index map, decided over the grid: point t takes row block t / 16. -/
theorem blk_idx_facts : ∀ t : Fin cfg1.N, win1_3.index t (0 : Fin 2) = t.val / 16 ∧ win1_3.index t (1 : Fin 2) = 0 :=
  (by decide +kernel : ∀ t : Fin grid1.N, _)

/-- An index of the array is in point t's output block iff each coordinate is in the block's range. -/
theorem blk_mem (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v7).slice (win1_3.rect t)).set ↔ _
  rw [View.set_slice_whole, Rect.mem_set_unit]
  exact Iff.rfl

/-- Row R of the array is in the block written back at point 16·(R / 1024) + 15. -/
theorem blk_cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  let t : Fin cfg1.N := ⟨16 * ((i 0).val / 1024) + 15, by show 16 * ((i 0).val / 1024) + 15 < grid1.N; rw [N_1]; omega⟩
  obtain ⟨e0, e1⟩ := blk_idx_facts t
  refine ⟨t, (flush1_3 t).2 (by show (16 * ((i 0).val / 1024) + 15) % 16 = 15; omega), ?_⟩
  rw [blk_mem]
  intro a
  match a with
  | ⟨0, _⟩ =>
    show win1_3.index t (0 : Fin 2) * 1024 ≤ (i 0).val ∧ (i 0).val < win1_3.index t (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win1_3.index t (1 : Fin 2) * 1024 ≤ (i 1).val ∧ (i 1).val < win1_3.index t (1 : Fin 2) * 1024 + 1024
    rw [e1]
    omega

section
variable (V : (c : Dev nD) → (b : Ref sig .tc) → Buf (Elt Ideal) ((c : Thread nD τ).loc b))

/-- If every written-back output block is the matching row block of Gf, region 1 leaves its output array holding Gf. -/
theorem blk_arrAt (c : Dev nD) (Gf : Cert.Spec.Rows)
    (hblk : ∀ (t : Fin cfg1.N), t.val % 16 = 15 → ∀ (r : Fin 1024) (d : Fin 1024),
      (outsAt1 V c t.val t.isLt).1 (ix2 r d)
        = Gf (ix2 ⟨1024 * (t.val / 16) + r.val, by have := t.isLt; have : cfg1.N = 128 := N_1; omega⟩ d)) :
    (dat1 V c).arrAt 3 cfg1.N = Gf := by
  refine (dat1 V c).arrAt_eq_of_cover 3 Gf (fun t hf => ?_) blk_cover
  have ht : t.val % 16 = 15 := (flush1_3 t).1 hf
  show (cfg1.win 3).cut (grid1.coords t) ((dat1 V c).after 3 t) = _
  rw [after1_3]
  obtain ⟨e0, e1⟩ := blk_idx_facts t
  funext j
  have hj0 : (j 0).val < 1024 := (j 0).isLt
  have hj1 : (j 1).val < 1024 := (j 1).isLt
  have hj : j = ix2 (⟨(j 0).val, hj0⟩ : Fin 1024) (⟨(j 1).val, hj1⟩ : Fin 1024) :=
    funext fun a => Fin.ext (by match a with | ⟨0, _⟩ => rfl | ⟨1, _⟩ => rfl)
  show (outsAt1 V c t.val t.isLt).1 j = Gf (((cfg1.win 3).blk t).view.emb j)
  refine (congrArg (outsAt1 V c t.val t.isLt).1 hj).trans ((hblk t ht ⟨(j 0).val, hj0⟩ ⟨(j 1).val, hj1⟩).trans ?_)
  refine congrArg Gf (funext fun a => Fin.ext ?_)
  match a with
  | ⟨0, _⟩ =>
    show 1024 * (t.val / 16) + (j 0).val = win1_3.index t (0 : Fin 2) * 1024 + 1 * (j 0).val
    omega
  | ⟨1, _⟩ =>
    show (j 1).val = win1_3.index t (1 : Fin 2) * 1024 + 1 * (j 1).val
    omega

end

end Cert.KernelIdeal.FlashValue

end
-- ==== Proof.FlashFinal.lean ====
import proofs.«100506_j39728447488156_2_alg».proof.Proof.KI.Body1
import proofs.«100506_j39728447488156_2_alg».proof.Proof.FlashCases
import proofs.«100506_j39728447488156_2_alg».proof.Proof.FlashStep
import proofs.«100506_j39728447488156_2_alg».proof.Proof.FlashBlocks
import proofs.«100506_j39728447488156_2_alg».proof.Proof.FlashArr

/-!
# Region 1 computes softmax attention

By induction on the grid point, the scratch after each point holds the streaming-softmax state over the keys of the
key tiles visited so far, for every row of the query tile and every column; so the block written back after the last
key tile is the specification's attention entry, and the output array ends holding softmax attention of the three
projected arrays, provided every entry of those is a real.
-/

set_option maxRecDepth 16384

noncomputable section

namespace Cert.KernelIdeal.FlashValue

open Cert.KernelIdeal Cert.KernelIdeal.Gen Cert.KernelIdeal.Fr
open Idealize.ShloMosaic Idealize.ShloMosaic.TcCoe Idealize.ShloMosaic.ValueIdx
open Idealize.SL.Sem OnlineSoftmax
open Idealize.ShloMosaic.Pipeline (Dat Cfg Window)

variable (V : (c : Dev nD) → (b : Ref sig .tc) → Buf (Elt Ideal) ((c : Thread nD τ).loc b)) (c : Dev nD)

/-! ## The three projected arrays as real arrays -/

/-- The query array's entries as reals (meaningful when every entry is a real). -/
def qR (R : Fin 8192) (e : Fin 1024) : ℝ := ((V c main_v6_0 : Vec Ideal S8192x1024 .f32) (ix2 R e)).toReal
/-- The key array's entries as reals. -/
def kR (j : Fin 8192) (e : Fin 1024) : ℝ := ((V c main_v6_1 : Vec Ideal S8192x1024 .f32) (ix2 j e)).toReal
/-- The value array's entries as reals. -/
def vR (j : Fin 8192) (e : Fin 1024) : ℝ := ((V c main_v6_2 : Vec Ideal S8192x1024 .bf16) (ix2 j e)).toReal

theorem q_coe (hq : ∀ i, ∃ x : ℝ, (V c main_v6_0 i : EReal) = (x : EReal)) (R : Fin 8192) (e : Fin 1024) :
    (V c main_v6_0 : Vec Ideal S8192x1024 .f32) (ix2 R e) = ((qR V c R e : ℝ) : EReal) := by
  obtain ⟨x, hx⟩ := hq (ix2 R e)
  have hx' : (V c main_v6_0 : Vec Ideal S8192x1024 .f32) (ix2 R e) = (x : EReal) := hx
  unfold qR
  rw [hx', EReal.toReal_coe]

theorem k_coe (hk : ∀ i, ∃ x : ℝ, (V c main_v6_1 i : EReal) = (x : EReal)) (j : Fin 8192) (e : Fin 1024) :
    (V c main_v6_1 : Vec Ideal S8192x1024 .f32) (ix2 j e) = ((kR V c j e : ℝ) : EReal) := by
  obtain ⟨x, hx⟩ := hk (ix2 j e)
  have hx' : (V c main_v6_1 : Vec Ideal S8192x1024 .f32) (ix2 j e) = (x : EReal) := hx
  unfold kR
  rw [hx', EReal.toReal_coe]

theorem v_coe (hv : ∀ i, ∃ x : ℝ, (V c main_v6_2 i : EReal) = (x : EReal)) (j : Fin 8192) (e : Fin 1024) :
    (V c main_v6_2 : Vec Ideal S8192x1024 .bf16) (ix2 j e) = ((vR V c j e : ℝ) : EReal) := by
  obtain ⟨x, hx⟩ := hv (ix2 j e)
  have hx' : (V c main_v6_2 : Vec Ideal S8192x1024 .bf16) (ix2 j e) = (x : EReal) := hx
  unfold vR
  rw [hx', EReal.toReal_coe]

set_option maxHeartbeats 2000000 in
/-- THE INVARIANT. After grid point `t` the scratch holds, for every row of its query tile and every column, the
    streaming-softmax state over the keys of the key tiles visited so far. -/
theorem scratch_inv (hq : ∀ i, ∃ x : ℝ, (V c main_v6_0 i : EReal) = (x : EReal)) (hk : ∀ i, ∃ x : ℝ, (V c main_v6_1 i : EReal) = (x : EReal)) (hv : ∀ i, ∃ x : ℝ, (V c main_v6_2 i : EReal) = (x : EReal)) : ∀ (n : ℕ) (t : Fin cfg1.N), t.val = n → ∀ (r d : Fin 1024) (R : Fin 8192),
    R.val = 1024 * (t.val / 16) + r.val →
    State (fun j : Fin 8192 => ∑ e : Fin 1024, qR V c R e * kR V c j e) (fun j : Fin 8192 => vR V c j d) (keysBefore (t.val % 16 + 1))
      ((outsAt1 V c t.val t.isLt).2.1 (ix2 r (0 : Fin 1))) ((outsAt1 V c t.val t.isLt).2.2.1 (ix2 r (0 : Fin 1)))
      ((outsAt1 V c t.val t.isLt).2.2.2 (ix2 r d)) := by
  intro n
  induction n with
  | zero =>
    intro t ht r d R hR
    have h0 : t.val % 16 = 0 := by rw [ht]
    have h1 : ¬t.val % 16 = 15 := by omega
    have eX := outsAt1_A V c t h0 h1
    have key := case_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t)
            (fun j : Fin 8192 => ∑ e : Fin 1024, qR V c R e * kR V c j e) (fun j : Fin 8192 => vR V c j d) (t.val % 16) (Nat.mod_lt _ (by decide)) (qR V c R) (kR V c) rfl r d
            (fun e => (iblk1_0_apply V c t r e R hR).trans (q_coe V c hq R e))
            (fun c' e => (iblk1_1_apply V c t c' e (keyOf (t.val % 16) (Nat.mod_lt _ (by decide)) c') rfl).trans (k_coe V c hk _ e))
            (fun c' => (iblk1_2_apply V c t c' d (keyOf (t.val % 16) (Nat.mod_lt _ (by decide)) c') rfl).trans (v_coe V c hv _ d)) h0
    have e2 := congrArg (fun p : (Vec Ideal S1024x1024 .f32 × Vec Ideal S1024x1 .f32 × Vec Ideal S1024x1 .f32 × Vec Ideal S1024x1024 .f32) => State (fun j : Fin 8192 => ∑ e : Fin 1024, qR V c R e * kR V c j e) (fun j : Fin 8192 => vR V c j d) (keysBefore (t.val % 16 + 1)) (p.2.1 (ix2 r (0 : Fin 1))) (p.2.2.1 (ix2 r (0 : Fin 1))) (p.2.2.2 (ix2 r d))) eX
    dsimp only at e2
    exact e2.mpr key
  | succ n ih =>
    intro t ht r d R hR
    have hN : cfg1.N = 128 := N1
    have htl := t.isLt
    by_cases h0 : t.val % 16 = 0
    · have h1 : ¬t.val % 16 = 15 := by omega
      have eX := outsAt1_A V c t h0 h1
      have key := case_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t)
              (fun j : Fin 8192 => ∑ e : Fin 1024, qR V c R e * kR V c j e) (fun j : Fin 8192 => vR V c j d) (t.val % 16) (Nat.mod_lt _ (by decide)) (qR V c R) (kR V c) rfl r d
            (fun e => (iblk1_0_apply V c t r e R hR).trans (q_coe V c hq R e))
            (fun c' e => (iblk1_1_apply V c t c' e (keyOf (t.val % 16) (Nat.mod_lt _ (by decide)) c') rfl).trans (k_coe V c hk _ e))
            (fun c' => (iblk1_2_apply V c t c' d (keyOf (t.val % 16) (Nat.mod_lt _ (by decide)) c') rfl).trans (v_coe V c hv _ d)) h0
      have e2 := congrArg (fun p : (Vec Ideal S1024x1024 .f32 × Vec Ideal S1024x1 .f32 × Vec Ideal S1024x1 .f32 × Vec Ideal S1024x1024 .f32) => State (fun j : Fin 8192 => ∑ e : Fin 1024, qR V c R e * kR V c j e) (fun j : Fin 8192 => vR V c j d) (keysBefore (t.val % 16 + 1)) (p.2.1 (ix2 r (0 : Fin 1))) (p.2.2.1 (ix2 r (0 : Fin 1))) (p.2.2.2 (ix2 r d))) eX
      dsimp only at e2
      exact e2.mpr key
    · have hprev := ih ⟨t.val - 1, Nat.lt_of_le_of_lt (Nat.sub_le _ _) t.isLt⟩ (by show t.val - 1 = n; omega) r d R
        (by show R.val = 1024 * ((t.val - 1) / 16) + r.val; omega)
      dsimp only at hprev
      rw [show (t.val - 1) % 16 + 1 = t.val % 16 from by omega] at hprev
      by_cases h1 : t.val % 16 = 15
      ·
        have eX := outsAt1_C V c t h0 h1
        have key := case_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t)
                (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
                (fun j : Fin 8192 => ∑ e : Fin 1024, qR V c R e * kR V c j e) (fun j : Fin 8192 => vR V c j d) (t.val % 16) (Nat.mod_lt _ (by decide)) (qR V c R) (kR V c) rfl r d
            (fun e => (iblk1_0_apply V c t r e R hR).trans (q_coe V c hq R e))
            (fun c' e => (iblk1_1_apply V c t c' e (keyOf (t.val % 16) (Nat.mod_lt _ (by decide)) c') rfl).trans (k_coe V c hk _ e))
            (fun c' => (iblk1_2_apply V c t c' d (keyOf (t.val % 16) (Nat.mod_lt _ (by decide)) c') rfl).trans (v_coe V c hv _ d)) hprev
        have e2 := congrArg (fun p : (Vec Ideal S1024x1024 .f32 × Vec Ideal S1024x1 .f32 × Vec Ideal S1024x1 .f32 × Vec Ideal S1024x1024 .f32) => State (fun j : Fin 8192 => ∑ e : Fin 1024, qR V c R e * kR V c j e) (fun j : Fin 8192 => vR V c j d) (keysBefore (t.val % 16 + 1)) (p.2.1 (ix2 r (0 : Fin 1))) (p.2.2.1 (ix2 r (0 : Fin 1))) (p.2.2.2 (ix2 r d))) eX
        dsimp only at e2
        exact e2.mpr key
      ·
        have eX := outsAt1_B V c t h0 h1
        have key := case_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t)
                (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
                (fun j : Fin 8192 => ∑ e : Fin 1024, qR V c R e * kR V c j e) (fun j : Fin 8192 => vR V c j d) (t.val % 16) (Nat.mod_lt _ (by decide)) (qR V c R) (kR V c) rfl r d
            (fun e => (iblk1_0_apply V c t r e R hR).trans (q_coe V c hq R e))
            (fun c' e => (iblk1_1_apply V c t c' e (keyOf (t.val % 16) (Nat.mod_lt _ (by decide)) c') rfl).trans (k_coe V c hk _ e))
            (fun c' => (iblk1_2_apply V c t c' d (keyOf (t.val % 16) (Nat.mod_lt _ (by decide)) c') rfl).trans (v_coe V c hv _ d)) hprev
        have e2 := congrArg (fun p : (Vec Ideal S1024x1024 .f32 × Vec Ideal S1024x1 .f32 × Vec Ideal S1024x1 .f32 × Vec Ideal S1024x1024 .f32) => State (fun j : Fin 8192 => ∑ e : Fin 1024, qR V c R e * kR V c j e) (fun j : Fin 8192 => vR V c j d) (keysBefore (t.val % 16 + 1)) (p.2.1 (ix2 r (0 : Fin 1))) (p.2.2.1 (ix2 r (0 : Fin 1))) (p.2.2.2 (ix2 r d))) eX
        dsimp only at e2
        exact e2.mpr key

set_option maxHeartbeats 2000000 in
/-- THE WRITTEN BLOCK. At the last key tile of a query tile the output block, at local row `r` and column `d`, is the
    specification's attention entry at the global row. -/
theorem out_block (hq : ∀ i, ∃ x : ℝ, (V c main_v6_0 i : EReal) = (x : EReal)) (hk : ∀ i, ∃ x : ℝ, (V c main_v6_1 i : EReal) = (x : EReal)) (hv : ∀ i, ∃ x : ℝ, (V c main_v6_2 i : EReal) = (x : EReal)) (t : Fin cfg1.N) (h15 : t.val % 16 = 15) (r d : Fin 1024) (R : Fin 8192)
    (hR : R.val = 1024 * (t.val / 16) + r.val) :
    (outsAt1 V c t.val t.isLt).1 (ix2 r d)
      = Cert.Spec.attnAt (V c main_v6_0) (V c main_v6_1) (V c main_v6_2) R d := by
  have hN : cfg1.N = 128 := N1
  have htl := t.isLt
  have h0 : ¬t.val % 16 = 0 := by omega
  have hprev := scratch_inv V c hq hk hv (t.val - 1) ⟨t.val - 1, Nat.lt_of_le_of_lt (Nat.sub_le _ _) t.isLt⟩ rfl r d R
    (by show R.val = 1024 * ((t.val - 1) / 16) + r.val; omega)
  dsimp only at hprev
  rw [show (t.val - 1) % 16 + 1 = t.val % 16 from by omega] at hprev
  have eX := outsAt1_C V c t h0 h15
  have key := case_C_out c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h15) (iblk1 V c 0 t) (iblk1 V c 1 t) (iblk1 V c 2 t)
          (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
          (fun j : Fin 8192 => ∑ e : Fin 1024, qR V c R e * kR V c j e) (fun j : Fin 8192 => vR V c j d) (t.val % 16) (Nat.mod_lt _ (by decide)) (qR V c R) (kR V c) rfl r d
            (fun e => (iblk1_0_apply V c t r e R hR).trans (q_coe V c hq R e))
            (fun c' e => (iblk1_1_apply V c t c' e (keyOf (t.val % 16) (Nat.mod_lt _ (by decide)) c') rfl).trans (k_coe V c hk _ e))
            (fun c' => (iblk1_2_apply V c t c' d (keyOf (t.val % 16) (Nat.mod_lt _ (by decide)) c') rfl).trans (v_coe V c hv _ d)) hprev
  have e2 := congrArg (fun p : (Vec Ideal S1024x1024 .f32 × Vec Ideal S1024x1 .f32 × Vec Ideal S1024x1 .f32 × Vec Ideal S1024x1024 .f32) => p.1 (ix2 r d)) eX
  dsimp only at e2
  refine e2.trans (key.trans ?_)
  rw [show t.val % 16 + 1 = 16 from by omega, keysBefore_sixteen]
  exact (attnAt_eq (V c main_v6_0) (V c main_v6_1) (V c main_v6_2) R d (qR V c R) (kR V c) (fun j => vR V c j d)
    (q_coe V c hq R) (k_coe V c hk) (fun j => v_coe V c hv j d)).symm

/-- REGION 1's OUTPUT ARRAY is softmax attention of the three projected arrays, when every entry of those is a real. -/
theorem attn_final (hq : ∀ i, ∃ x : ℝ, (V c main_v6_0 i : EReal) = (x : EReal)) (hk : ∀ i, ∃ x : ℝ, (V c main_v6_1 i : EReal) = (x : EReal)) (hv : ∀ i, ∃ x : ℝ, (V c main_v6_2 i : EReal) = (x : EReal)) :
    (dat1 V c).arrAt 3 cfg1.N = Cert.Spec.attn (V c main_v6_0) (V c main_v6_1) (V c main_v6_2) :=
  blk_arrAt V c (Cert.Spec.attn (V c main_v6_0) (V c main_v6_1) (V c main_v6_2)) fun t h15 r d =>
    out_block V c hq hk hv t h15 r d _ rfl

end Cert.KernelIdeal.FlashValue
-- ==== Proof.KValue.lean ====
/-
  The value of the idealized kernel's result. The run ends with every unscoped buffer at the last boundary's contents; the
  result buffer there is the unit-axis insertion of region 1's output array, which is softmax attention of the three arrays
  region 0 leaves, which are the three projections of the embeddings. Finiteness of the inputs makes the projections
  real-valued, which is what the online rescaling needs.
-/
import proofs.«100506_j39728447488156_2_alg».proof.Proof.KI.Main
import proofs.«100506_j39728447488156_2_alg».proof.Proof.Spec
import proofs.«100506_j39728447488156_2_alg».proof.Proof.Finite
import proofs.«100506_j39728447488156_2_alg».proof.Proof.ProjFinal
import proofs.«100506_j39728447488156_2_alg».proof.Proof.FlashFinal
import Idealize.ShloMosaic.Lib.StableHlo.Run
import Idealize.ShloMosaic.Lib.Pipeline.Value
import Idealize.ShloMosaic.Lib.ValueIdx

noncomputable section

namespace Cert.KernelIdeal.KValue

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result buffer at the end: the host operation after region 1 applied to region 1's output array. -/
theorem W4_v8 (c : Dev nD) :
    W4 m ρ c (Proc.devRef .tc main_v8)
      = broadcastInDim S8192x1x1024 ![0, 2] Facts₀.bcast_S8192x1024_S8192x1x1024_0_2 (W3 m ρ c (Proc.devRef .tc main_v7)) := by
  show StableHlo.after hostOps2 (W3 m ρ c) (Proc.devRef .tc main_v8) = _
  after_results

/-- Inserting the unit axis into the attention array gives the specification's result. -/
theorem bcast_attn (q k v : Cert.Spec.Rows) :
    broadcastInDim S8192x1x1024 ![0, 2] Facts₀.bcast_S8192x1024_S8192x1x1024_0_2 (Cert.Spec.attn q k v) = Cert.Spec.out q k v := by
  funext i
  obtain ⟨r, u, d, rfl⟩ : ∃ (r : Fin 8192) (u : Fin 1) (d : Fin 1024), i = ix3 r u d := ⟨i 0, i 1, i 2, eq_ix3 i⟩
  refine (broadcastInDim_apply ![0, 2] _ _ (ix3 r u d) (ix2 r d) (fun a => by
    match a with
    | ⟨0, _⟩ => rfl
    | ⟨1, _⟩ => rfl)).trans ?_
  rfl

/-- The kernel's result, under finite inputs, is the specification of the seven argument arrays. -/
theorem result (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (fun _ => 1#1)) :
    W4 m ρ c (Proc.devRef .tc main_v8)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  obtain ⟨h0, h1, h2, h3, h4, h5, h6⟩ := Cert.Finite.inputs_real _ _ _ _ _ _ _ hpre
  have eq : V2 m ρ c main_v6_0 = Cert.Spec.proj (m ((c.tc : Thread nD τ).loc main_arg0)) (m ((c.tc : Thread nD τ).loc main_arg1)) (m ((c.tc : Thread nD τ).loc main_arg2)) := ProjValue.W2_q m ρ c
  have ek : V2 m ρ c main_v6_1 = Cert.Spec.proj (m ((c.tc : Thread nD τ).loc main_arg0)) (m ((c.tc : Thread nD τ).loc main_arg3)) (m ((c.tc : Thread nD τ).loc main_arg4)) := ProjValue.W2_k m ρ c
  have ev : V2 m ρ c main_v6_2 = Cert.Spec.proj (m ((c.tc : Thread nD τ).loc main_arg0)) (m ((c.tc : Thread nD τ).loc main_arg5)) (m ((c.tc : Thread nD τ).loc main_arg6)) := ProjValue.W2_v m ρ c
  have ea := FlashValue.attn_final (V2 m ρ) c
    (fun i => by rw [eq]; exact Cert.Finite.proj_real _ _ _ h0 h1 h2 i)
    (fun i => by rw [ek]; exact Cert.Finite.proj_real _ _ _ h0 h3 h4 i)
    (fun i => by rw [ev]; exact Cert.Finite.proj_real _ _ _ h0 h5 h6 i)
  rw [eq, ek, ev] at ea
  rw [W4_v8, show W3 m ρ c (Proc.devRef .tc main_v7) = _ from W3_arr m ρ c 3, ea, bcast_attn]
  rfl

end Cert.KernelIdeal.KValue

end
-- ==== Proof.RefValue.lean ====
/-
  The reference program's result, stage by stage, is the specification's function of the seven argument arrays.
-/
import proofs.«100506_j39728447488156_2_alg».proof.Proof.Gen.ReferenceIdeal.Read
import proofs.«100506_j39728447488156_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- One linear projection of the reference, x·Wᵀ + b, read at an index. -/
theorem proj_q (x0 : Spec.Rows) (x1 : Spec.Mat) (x2 : Spec.Bias) :
    val_main_v4 (F := Ideal) x0 x1 x2 = Spec.proj x0 x1 x2 := by
  funext i
  have e1 : ∀ k : Fin 1024, lidx_main_v1 i k = ix2 (i 0) k := fun k =>
    funext fun a => Fin.ext (by match a with | ⟨0, _⟩ => rfl | ⟨1, _⟩ => rfl)
  have e2 : ∀ k : Fin 1024, idx_main_v0 (ridx_main_v1 i k) = ix2 (i 1) k := fun k =>
    funext fun a => Fin.ext (by match a with | ⟨0, _⟩ => rfl | ⟨1, _⟩ => rfl)
  have e3 : idx_main_v2 (idx_main_v3 i) = ix1 (i 1) :=
    funext fun a => Fin.ext (by match a with | ⟨0, _⟩ => rfl)
  rw [val_main_v4_apply, val_main_v1_apply, val_main_v3_apply, val_main_v2_apply]
  simp only [val_main_v0_apply, Ideal.addf_def, e1, e2, e3]
  rfl

theorem proj_k (x0 : Spec.Rows) (x3 : Spec.Mat) (x4 : Spec.Bias) :
    val_main_v9 (F := Ideal) x0 x3 x4 = Spec.proj x0 x3 x4 := by
  funext i
  have e1 : ∀ k : Fin 1024, lidx_main_v6 i k = ix2 (i 0) k := fun k =>
    funext fun a => Fin.ext (by match a with | ⟨0, _⟩ => rfl | ⟨1, _⟩ => rfl)
  have e2 : ∀ k : Fin 1024, idx_main_v5 (ridx_main_v6 i k) = ix2 (i 1) k := fun k =>
    funext fun a => Fin.ext (by match a with | ⟨0, _⟩ => rfl | ⟨1, _⟩ => rfl)
  have e3 : idx_main_v7 (idx_main_v8 i) = ix1 (i 1) :=
    funext fun a => Fin.ext (by match a with | ⟨0, _⟩ => rfl)
  rw [val_main_v9_apply, val_main_v6_apply, val_main_v8_apply, val_main_v7_apply]
  simp only [val_main_v5_apply, Ideal.addf_def, e1, e2, e3]
  rfl

theorem proj_v (x0 : Spec.Rows) (x5 : Spec.Mat) (x6 : Spec.Bias) :
    val_main_v14 (F := Ideal) x0 x5 x6 = Spec.proj x0 x5 x6 := by
  funext i
  have e1 : ∀ k : Fin 1024, lidx_main_v11 i k = ix2 (i 0) k := fun k =>
    funext fun a => Fin.ext (by match a with | ⟨0, _⟩ => rfl | ⟨1, _⟩ => rfl)
  have e2 : ∀ k : Fin 1024, idx_main_v10 (ridx_main_v11 i k) = ix2 (i 1) k := fun k =>
    funext fun a => Fin.ext (by match a with | ⟨0, _⟩ => rfl | ⟨1, _⟩ => rfl)
  have e3 : idx_main_v12 (idx_main_v13 i) = ix1 (i 1) :=
    funext fun a => Fin.ext (by match a with | ⟨0, _⟩ => rfl)
  rw [val_main_v14_apply, val_main_v11_apply, val_main_v13_apply, val_main_v12_apply]
  simp only [val_main_v10_apply, Ideal.addf_def, e1, e2, e3]
  rfl

/-- The reference's score matrix q·kᵀ. -/
theorem scores_eq (x0 : Spec.Rows) (x1 : Spec.Mat) (x2 : Spec.Bias) (x3 : Spec.Mat) (x4 : Spec.Bias) :
    val_main_v16 (F := Ideal) x0 x1 x2 x3 x4 = Spec.scores (Spec.proj x0 x1 x2) (Spec.proj x0 x3 x4) := by
  funext i
  have e1 : ∀ k : Fin 1024, lidx_main_v16 i k = ix2 (i 0) k := fun k =>
    funext fun a => Fin.ext (by match a with | ⟨0, _⟩ => rfl | ⟨1, _⟩ => rfl)
  have e2 : ∀ k : Fin 1024, idx_main_v15 (ridx_main_v16 i k) = ix2 (i 1) k := fun k =>
    funext fun a => Fin.ext (by match a with | ⟨0, _⟩ => rfl | ⟨1, _⟩ => rfl)
  rw [val_main_v16_apply]
  simp only [val_main_v15_apply, proj_q, proj_k, e1, e2]
  rfl

/-- A result index of the row reduction with column j put back is (r, j). -/
theorem lift_row (h : S8192x8192.Reduces [1] S8192) (i : S8192.Idx) (j : Fin (S8192x8192.size 1)) :
    h.lift i j = ix2 (i 0) (⟨j.val, j.isLt⟩ : Fin 8192) := by
  funext c; apply Fin.ext
  match c with
  | ⟨0, _⟩ => rfl
  | ⟨1, _⟩ => rfl

/-- The reference's row maximum. -/
theorem rowMax_eq (x0 : Spec.Rows) (x1 : Spec.Mat) (x2 : Spec.Bias) (x3 : Spec.Mat) (x4 : Spec.Bias) (i : S8192.Idx) :
    val_main_v19 (F := Ideal) x0 x1 x2 x3 x4 i = Spec.rowMax (Spec.proj x0 x1 x2) (Spec.proj x0 x3 x4) (i 0) := by
  have h : S8192x8192.Reduces [1] S8192 := by decide
  rw [val_main_v19_apply, val_main_v18_apply, val_main_cst_0_apply]
  unfold val_main_v17
  rw [Host.reduce_eq_fold_single FloatOps.maximumf _ _ reducesTo_S8192x8192_S8192_d1 h h_S_, scores_eq, val_main_cst_apply]
  simp only [Ideal.ofBits_def, Spec.ofBits_negInf]
  unfold Spec.rowMax
  refine congrArg (max (⊥ : EReal)) ?_
  have hf : (Spec.scores (Spec.proj x0 x1 x2) (Spec.proj x0 x3 x4) ∘ h.lift i)
      = fun j : Fin 8192 => Spec.scoreAt (Spec.proj x0 x1 x2) (Spec.proj x0 x3 x4) (i 0) j :=
    funext fun j => by
      show Spec.scores _ _ (h.lift i j) = _
      rw [lift_row h i j]
      rfl
  exact congrArg (fun f => Finset.fold max (⊥ : EReal) f (Finset.univ : Finset (Fin 8192))) hf

/-- The reference's shifted exponentials. -/
theorem exp_eq (x0 : Spec.Rows) (x1 : Spec.Mat) (x2 : Spec.Bias) (x3 : Spec.Mat) (x4 : Spec.Bias) (i : S8192x8192.Idx) :
    val_main_v23 (F := Ideal) x0 x1 x2 x3 x4 i
      = Ideal.exp (Spec.scoreAt (Spec.proj x0 x1 x2) (Spec.proj x0 x3 x4) (i 0) (i 1)
          - Spec.rowMax (Spec.proj x0 x1 x2) (Spec.proj x0 x3 x4) (i 0)) := by
  rw [val_main_v23_apply, val_main_v22_apply, val_main_v21_apply, val_main_v20_apply, rowMax_eq, scores_eq]
  simp only [Ideal.hostUnary_exp_def, Ideal.subf_def]
  rfl

/-- The reference's softmax denominator. -/
theorem rowSum_eq (x0 : Spec.Rows) (x1 : Spec.Mat) (x2 : Spec.Bias) (x3 : Spec.Mat) (x4 : Spec.Bias) (i : S8192.Idx) :
    val_main_v24 (F := Ideal) x0 x1 x2 x3 x4 i = Spec.rowSum (Spec.proj x0 x1 x2) (Spec.proj x0 x3 x4) (i 0) := by
  rw [val_main_v24_apply, val_main_cst_1_apply]
  simp only [exp_eq, Ideal.ofBits_def, Ideal.ofBits_zero_f32]
  rfl

/-- The reference's attention weights. -/
theorem weights_eq (x0 : Spec.Rows) (x1 : Spec.Mat) (x2 : Spec.Bias) (x3 : Spec.Mat) (x4 : Spec.Bias) (i : S8192x8192.Idx) :
    val_main_v27 (F := Ideal) x0 x1 x2 x3 x4 i
      = Ideal.div (Ideal.exp (Spec.scoreAt (Spec.proj x0 x1 x2) (Spec.proj x0 x3 x4) (i 0) (i 1)
          - Spec.rowMax (Spec.proj x0 x1 x2) (Spec.proj x0 x3 x4) (i 0)))
          (Spec.rowSum (Spec.proj x0 x1 x2) (Spec.proj x0 x3 x4) (i 0)) := by
  rw [val_main_v27_apply, val_main_v26_apply, val_main_v25_apply, rowSum_eq, exp_eq]
  simp only [Ideal.hostDivf_def]
  rfl

/-- The reference's result is the specification's function of the seven argument arrays. -/
theorem result_eq (x0 : Spec.Rows) (x1 : Spec.Mat) (x2 : Spec.Bias) (x3 : Spec.Mat) (x4 : Spec.Bias) (x5 : Spec.Mat)
    (x6 : Spec.Bias) :
    val_main_v29 (F := Ideal) x0 x1 x2 x3 x4 x5 x6 = Spec.G x0 x1 x2 x3 x4 x5 x6 := by
  funext i
  have e1 : ∀ k : Fin 8192, ridx_main_v28 (idx_main_v29 i) k = ix2 k (i 2) := fun k =>
    funext fun a => Fin.ext (by match a with | ⟨0, _⟩ => rfl | ⟨1, _⟩ => rfl)
  rw [val_main_v29_apply, val_main_v28_apply]
  simp only [weights_eq, proj_v, e1]
  rfl

end Cert.ReferenceIdeal.RefValue

end
-- ==== Proof.lean ====
/-
  The certificate. The kernel computes three linear projections q, k, v of the embeddings in one pipelined region and, in a
  second, softmax attention of them by the online recurrence: visiting the key rows tile by tile it keeps a running row
  maximum m, a normaliser l = Σ exp(s − m) and an accumulator acc = Σ exp(s − m)·v, rescaling both by exp(m_old − m_new) when
  the maximum grows, and divides acc by l after the last tile. The reference forms the whole score matrix, subtracts each
  row's maximum, exponentiates, divides by the row sum and multiplies by v. On the extended reals with finite inputs the two
  are one function: every score is a real, exp(m_old − m_new)·exp(s − m_old) = exp(s − m_new), and dividing a finite sum by a
  positive real divides each term.

  The three frames: both kernel programs by the whole-run theorem of their frame modules (the same text at the two
  instances), the reference by its generated run. No operation was rewritten by the idealization, so that conjunct is trivial.
  The value: the kernel's run pins the result buffer at the last boundary's contents, read back as the specification; the
  reference's generated run is read back, operation by operation, as the same specification.
-/
import proofs.«100506_j39728447488156_2_alg».proof.Defs
import proofs.«100506_j39728447488156_2_alg».proof.Proof.Gen.Kernel
import proofs.«100506_j39728447488156_2_alg».proof.Proof.Gen.KernelIdeal
import proofs.«100506_j39728447488156_2_alg».proof.Proof.Gen.ReferenceIdeal
import proofs.«100506_j39728447488156_2_alg».proof.Proof.Gen.ReferenceIdeal.Run
import proofs.«100506_j39728447488156_2_alg».proof.Proof.Gen.ReferenceIdeal.Read
import proofs.«100506_j39728447488156_2_alg».proof.Proof.Gen.Pre_finite_inputs
import proofs.«100506_j39728447488156_2_alg».proof.Proof.KB.Main
import proofs.«100506_j39728447488156_2_alg».proof.Proof.KI.Main
import proofs.«100506_j39728447488156_2_alg».proof.Proof.KValue
import proofs.«100506_j39728447488156_2_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Fr.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the specification of the argument arrays in their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, (h c _ (Cert.KernelIdeal.Fr.mem_uc Cert.KernelIdeal.main_arg0 (by decide))).trans (Cert.KernelIdeal.Fr.W4_main_arg0 m ρ c),
      (h c _ (Cert.KernelIdeal.Fr.mem_uc Cert.KernelIdeal.main_arg1 (by decide))).trans (Cert.KernelIdeal.Fr.W4_main_arg1 m ρ c),
      (h c _ (Cert.KernelIdeal.Fr.mem_uc Cert.KernelIdeal.main_arg2 (by decide))).trans (Cert.KernelIdeal.Fr.W4_main_arg2 m ρ c),
      (h c _ (Cert.KernelIdeal.Fr.mem_uc Cert.KernelIdeal.main_arg3 (by decide))).trans (Cert.KernelIdeal.Fr.W4_main_arg3 m ρ c),
      (h c _ (Cert.KernelIdeal.Fr.mem_uc Cert.KernelIdeal.main_arg4 (by decide))).trans (Cert.KernelIdeal.Fr.W4_main_arg4 m ρ c),
      (h c _ (Cert.KernelIdeal.Fr.mem_uc Cert.KernelIdeal.main_arg5 (by decide))).trans (Cert.KernelIdeal.Fr.W4_main_arg5 m ρ c),
      (h c _ (Cert.KernelIdeal.Fr.mem_uc Cert.KernelIdeal.main_arg6 (by decide))).trans (Cert.KernelIdeal.Fr.W4_main_arg6 m ρ c)⟩)
      (Cert.KernelIdeal.Fr.run_all (F := Ideal) m ρ)
    exact (h c _ (Cert.KernelIdeal.Fr.mem_uc Cert.KernelIdeal.main_v8 (by decide))).trans (Cert.KernelIdeal.KValue.result m ρ c (hpre c))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v29_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
